-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S64x32 : Shape := ⟨2, ![64, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg8 : FVec F S16 .f32) (main_v33 : IVec S_ 1) : IVec S_ 1 :=
  let main_v34 : FVec F S16 .f32 := Host.absf main_arg8
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  main_v38

def fn_part1 {F : FTy → Type} [FloatOps F] (main_arg5 : FVec F S32x32 .f32) (main_arg6 : FVec F S32 .f32) (main_arg7 : FVec F S32x16 .f32) (main_arg8 : FVec F S16 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg5
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x16 .f32 := Host.absf main_arg7
  let main_cst_10 : FVec F S_ .f32 := constant S_ .f32 0x7F800000#32
  let main_v30 : FVec F S32x16 .f32 := broadcastInDim S32x16 ![] bcast_S_S32x16 main_cst_10
  let main_v31 : IVec S32x16 1 := cmpf .olt main_v29 main_v30
  let main_c_11 : IVec S_ 1 := constantI S_ 1 1#1
  let main_v32 : IVec S_ 1 := (fun x v => Host.reduce IntOp.andi x v reducesTo_S32x16_S_d0_1 h_S_) main_v31 main_c_11
  let main_v33 : IVec S_ 1 := andi main_v28 main_v32
  fn_part2 (F := F) main_arg8 main_v33

def fn {F : FTy → Type} [FloatOps F] (main_arg0 : FVec F S100000x64 .f32) (main_arg1 : IVec S2x1600000 32) (main_arg2 : FVec F S1600000 .f32) (main_arg3 : FVec F S64x32 .f32) (main_arg4 : FVec F S32 .f32) (main_arg5 : FVec F S32x32 .f32) (main_arg6 : FVec F S32 .f32) (main_arg7 : FVec F S32x16 .f32) (main_arg8 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x32 .f32 := Host.absf main_arg3
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S64x32 : Shape := ⟨2, ![64, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x32 : Shape := ⟨2, ![100000, 32]⟩
abbrev S4000x64 : Shape := ⟨2, ![4000, 64]⟩
abbrev S4000x32 : Shape := ⟨2, ![4000, 32]⟩
abbrev S1700000x32 : Shape := ⟨2, ![1700000, 32]⟩
abbrev S1x32 : Shape := ⟨2, ![1, 32]⟩
abbrev S1x16 : Shape := ⟨2, ![1, 16]⟩
abbrev S100000x16 : Shape := ⟨2, ![100000, 16]⟩
abbrev S4000x16 : Shape := ⟨2, ![4000, 16]⟩

abbrev nBuf : Space → Nat
  | .hbm => 91
  | .vmem => 26
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S64x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x16, .f32⟩
  | .hbm, ⟨8, _⟩ => ⟨S16, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000, .i32⟩
  | .hbm, ⟨14, _⟩ => ⟨S1700000, .i32⟩
  | .hbm, ⟨15, _⟩ => ⟨S1700000, .i32⟩
  | .hbm, ⟨16, _⟩ => ⟨S_, .f32⟩
  | .hbm, ⟨17, _⟩ => ⟨S100000, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x32, .f32⟩
  | .hbm, ⟨52, _⟩ => ⟨S1700000x1, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x32, .f32⟩
  | .hbm, ⟨62, _⟩ => ⟨S1700000x32, .f32⟩
  | .hbm, ⟨63, _⟩ => ⟨S1700000x32, .f32⟩
  | .hbm, ⟨64, _⟩ => ⟨S_, .f32⟩
  | .hbm, ⟨65, _⟩ => ⟨S100000x32, .f32⟩
  | .hbm, ⟨66, _⟩ => ⟨S1700000x1, .i32⟩
  | .hbm, ⟨67, _⟩ => ⟨S100000x32, .f32⟩
  | .hbm, ⟨68, _⟩ => ⟨S1x32, .f32⟩
  | .hbm, ⟨69, _⟩ => ⟨S100000x32, .f32⟩
  | .hbm, ⟨70, _⟩ => ⟨S100000x32, .f32⟩
  | .hbm, ⟨71, _⟩ => ⟨S1700000x1, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x32, .f32⟩
  | .hbm, ⟨81, _⟩ => ⟨S1700000x32, .f32⟩
  | .hbm, ⟨82, _⟩ => ⟨S1700000x32, .f32⟩
  | .hbm, ⟨83, _⟩ => ⟨S_, .f32⟩
  | .hbm, ⟨84, _⟩ => ⟨S100000x32, .f32⟩
  | .hbm, ⟨85, _⟩ => ⟨S1700000x1, .i32⟩
  | .hbm, ⟨86, _⟩ => ⟨S100000x32, .f32⟩
  | .hbm, ⟨87, _⟩ => ⟨S1x32, .f32⟩
  | .hbm, ⟨88, _⟩ => ⟨S100000x32, .f32⟩
  | .hbm, ⟨89, _⟩ => ⟨S1x16, .f32⟩
  | .hbm, ⟨90, _⟩ => ⟨S100000x16, .f32⟩
  | .local _ .vmem, ⟨0, _⟩ => ⟨S4000x64, .f32⟩
  | .local _ .vmem, ⟨1, _⟩ => ⟨S4000x64, .f32⟩
  | .local _ .vmem, ⟨2, _⟩ => ⟨S64x32, .f32⟩
  | .local _ .vmem, ⟨3, _⟩ => ⟨S4000x32, .f32⟩
  | .local _ .vmem, ⟨4, _⟩ => ⟨S4000x32, .f32⟩
  | .local _ .vmem, ⟨5, _⟩ => ⟨S4000x32, .f32⟩
  | .local _ .vmem, ⟨6, _⟩ => ⟨S4000x32, .f32⟩
  | .local _ .vmem, ⟨7, _⟩ => ⟨S1x32, .f32⟩
  | .local _ .vmem, ⟨8, _⟩ => ⟨S4000x32, .f32⟩
  | .local _ .vmem, ⟨9, _⟩ => ⟨S4000x32, .f32⟩
  | .local _ .vmem, ⟨10, _⟩ => ⟨S4000x32, .f32⟩
  | .local _ .vmem, ⟨11, _⟩ => ⟨S4000x32, .f32⟩
  | .local _ .vmem, ⟨12, _⟩ => ⟨S32x32, .f32⟩
  | .local _ .vmem, ⟨13, _⟩ => ⟨S4000x32, .f32⟩
  | .local _ .vmem, ⟨14, _⟩ => ⟨S4000x32, .f32⟩
  | .local _ .vmem, ⟨15, _⟩ => ⟨S4000x32, .f32⟩
  | .local _ .vmem, ⟨16, _⟩ => ⟨S4000x32, .f32⟩
  | .local _ .vmem, ⟨17, _⟩ => ⟨S1x32, .f32⟩
  | .local _ .vmem, ⟨18, _⟩ => ⟨S4000x32, .f32⟩
  | .local _ .vmem, ⟨19, _⟩ => ⟨S4000x32, .f32⟩
  | .local _ .vmem, ⟨20, _⟩ => ⟨S4000x32, .f32⟩
  | .local _ .vmem, ⟨21, _⟩ => ⟨S4000x32, .f32⟩
  | .local _ .vmem, ⟨22, _⟩ => ⟨S32x16, .f32⟩
  | .local _ .vmem, ⟨23, _⟩ => ⟨S1x16, .f32⟩
  | .local _ .vmem, ⟨24, _⟩ => ⟨S4000x16, .f32⟩
  | .local _ .vmem, ⟨25, _⟩ => ⟨S4000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_c_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S4000x16 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S4000x64_S4000x64_0_0 : ∀ a, (![0, 0] : Fin 2 → Nat) a + S4000x64.size a ≤ S4000x64.size a
  h_S4000x64 : 0 < S4000x64.numel
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  inb_S4000x32_S4000x32_0_0 : ∀ a, (![0, 0] : Fin 2 → Nat) a + S4000x32.size a ≤ S4000x32.size a
  h_S4000x32 : 0 < S4000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  shapeCasts_S4000x32_S4000x32 : S4000x32.ShapeCasts S4000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S32x32_S32x32_0_0 : ∀ a, (![0, 0] : Fin 2 → Nat) a + S32x32.size a ≤ S32x32.size a
  h_S32x32 : 0 < S32x32.numel
  shapeCasts_S16_S1x16 : S16.ShapeCasts S1x16
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  inb_S4000x16_S4000x16_0_0 : ∀ a, (![0, 0] : Fin 2 → Nat) a + S4000x16.size a ≤ S4000x16.size a
  h_S4000x16 : 0 < S4000x16.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x64_S64x32_S4000x32_1_0_0_1_n_n_wf : DotDims.WF S4000x64 S64x32 S4000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S4000x32_S32x32_S4000x32_1_0_0_1_n_n_wf : DotDims.WF S4000x32 S32x32 S4000x32 [1] [0] [0] [1] [] []
  dot_S4000x32_S32x16_S4000x16_1_0_0_1_n_n_wf : DotDims.WF S4000x32 S32x16 S4000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x32.size a ≤ S64x32.size a
  hwx0_1 : ∀ i : grid0.Coords, EltTy.bits .f32 = 32 ∨ (Rect.block (s := S64x32) S64x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x32.size a ≤ S100000x32.size a
  hwx0_2 : ∀ i : grid0.Coords, EltTy.bits .f32 = 32 ∨ (Rect.block (s := S100000x32) S4000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x32.size a ≤ S100000x32.size a
  hwx1_0 : ∀ i : grid1.Coords, EltTy.bits .f32 = 32 ∨ (Rect.block (s := S100000x32) S4000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x32.size a ≤ S100000x32.size a
  hwx1_2 : ∀ i : grid1.Coords, EltTy.bits .f32 = 32 ∨ (Rect.block (s := S100000x32) S4000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x32.size a ≤ S100000x32.size a
  hwx2_0 : ∀ i : grid2.Coords, EltTy.bits .f32 = 32 ∨ (Rect.block (s := S100000x32) S4000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x32.size a ≤ S100000x32.size a
  hwx2_2 : ∀ i : grid2.Coords, EltTy.bits .f32 = 32 ∨ (Rect.block (s := S100000x32) S4000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x32.size a ≤ S100000x32.size a
  hwx3_0 : ∀ i : grid3.Coords, EltTy.bits .f32 = 32 ∨ (Rect.block (s := S100000x32) S4000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x32.size a ≤ S100000x32.size a
  hwx3_2 : ∀ i : grid3.Coords, EltTy.bits .f32 = 32 ∨ (Rect.block (s := S100000x32) S4000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x32.size a ≤ S100000x32.size a
  hwx4_0 : ∀ i : grid4.Coords, EltTy.bits .f32 = 32 ∨ (Rect.block (s := S100000x32) S4000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x16.size a ≤ S32x16.size a
  hwx4_1 : ∀ i : grid4.Coords, EltTy.bits .f32 = 32 ∨ (Rect.block (s := S32x16) S32x16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x16.size a ≤ S1x16.size a
  hwx4_2 : ∀ i : grid4.Coords, EltTy.bits .f32 = 32 ∨ (Rect.block (s := S1x16) S1x16.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x16.size a ≤ S100000x16.size a
  hwx4_3 : ∀ i : grid4.Coords, EltTy.bits .f32 = 32 ∨ (Rect.block (s := S100000x16) S4000x16.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x64_S64x32_S4000x32_1_0_0_1_n_n : DotDims S4000x64 S64x32 S4000x32 where
  lhsContracting := [1]
  rhsContracting := [0]
  lhsNonContracting := [0]
  rhsNonContracting := [1]
  lhsBatch := []
  rhsBatch := []
  wf := dot_S4000x64_S64x32_S4000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S4000x32_S32x32_S4000x32_1_0_0_1_n_n : DotDims S4000x32 S32x32 S4000x32 where
  lhsContracting := [1]
  rhsContracting := [0]
  lhsNonContracting := [0]
  rhsNonContracting := [1]
  lhsBatch := []
  rhsBatch := []
  wf := dot_S4000x32_S32x32_S4000x32_1_0_0_1_n_n_wf
def dot_S4000x32_S32x16_S4000x16_1_0_0_1_n_n : DotDims S4000x32 S32x16 S4000x16 where
  lhsContracting := [1]
  rhsContracting := [0]
  lhsNonContracting := [0]
  rhsNonContracting := [1]
  lhsBatch := []
  rhsBatch := []
  wf := dot_S4000x32_S32x16_S4000x16_1_0_0_1_n_n_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S4000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S4000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S4000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S4000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S4000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S4000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S4000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S4000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S32x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S1x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v65) S4000x16.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S64x32 : Shape := ⟨2, ![64, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S100000x32 : Shape := ⟨2, ![100000, 32]⟩
abbrev S1700000x1 : Shape := ⟨2, ![1700000, 1]⟩
abbrev S1700000x32 : Shape := ⟨2, ![1700000, 32]⟩
abbrev S1x32 : Shape := ⟨2, ![1, 32]⟩
abbrev S100000x16 : Shape := ⟨2, ![100000, 16]⟩
abbrev S1x16 : Shape := ⟨2, ![1, 16]⟩

abbrev nBuf : Space → Nat
  | .hbm => 134
  | .vmem => 0
  | .smem => 0
  | _ => 0

abbrev hbmTy0_0 (i : Nat) : BufTy := match i % 128 with
  | 0 => ⟨S100000x64, .f32⟩
  | 1 => ⟨S2x1600000, .i32⟩
  | 2 => ⟨S1600000, .f32⟩
  | 3 => ⟨S64x32, .f32⟩
  | 4 => ⟨S32, .f32⟩
  | 5 => ⟨S32x32, .f32⟩
  | 6 => ⟨S32, .f32⟩
  | 7 => ⟨S32x16, .f32⟩
  | 8 => ⟨S16, .f32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S_, .f32⟩
  | 17 => ⟨S100000, .f32⟩
  | 18 => ⟨S1700000, .f32⟩
  | 19 => ⟨S100000x32, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S1700000x1, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x32, .f32⟩
  | 62 => ⟨S1700000x32, .f32⟩
  | 63 => ⟨S1700000x32, .f32⟩
  | 64 => ⟨S_, .f32⟩
  | 65 => ⟨S100000x32, .f32⟩
  | 66 => ⟨S1700000x1, .i32⟩
  | 67 => ⟨S100000x32, .f32⟩
  | 68 => ⟨S1x32, .f32⟩
  | 69 => ⟨S100000x32, .f32⟩
  | 70 => ⟨S100000x32, .f32⟩
  | 71 => ⟨S_, .f32⟩
  | 72 => ⟨S100000x32, .f32⟩
  | 73 => ⟨S100000x32, .f32⟩
  | 74 => ⟨S100000x32, .f32⟩
  | 75 => ⟨S_, .f32⟩
  | 76 => ⟨S100000, .f32⟩
  | 77 => ⟨S1700000x1, .i32⟩
  | 78 => ⟨S100000, .f32⟩
  | 79 => ⟨S_, .f32⟩
  | 80 => ⟨S100000, .f32⟩
  | 81 => ⟨S100000, .i1⟩
  | 82 => ⟨S100000, .f32⟩
  | 83 => ⟨S_, .f32⟩
  | 84 => ⟨S_, .f32⟩
  | 85 => ⟨S100000, .f32⟩
  | 86 => ⟨S100000, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000, .f32⟩
  | 96 => ⟨S1700000, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000, .f32⟩
  | 106 => ⟨S1700000, .f32⟩
  | 107 => ⟨S1700000x1, .f32⟩
  | 108 => ⟨S_, .i32⟩
  | 109 => ⟨S1700000, .i32⟩
  | 110 => ⟨S1700000, .i1⟩
  | 111 => ⟨S_, .i32⟩
  | 112 => ⟨S1700000, .i32⟩
  | 113 => ⟨S1700000, .i32⟩
  | 114 => ⟨S1700000, .i32⟩
  | 115 => ⟨S1700000x1, .i32⟩
  | 116 => ⟨S1700000x32, .f32⟩
  | 117 => ⟨S1700000x32, .f32⟩
  | 118 => ⟨S1700000x32, .f32⟩
  | 119 => ⟨S_, .f32⟩
  | 120 => ⟨S100000x32, .f32⟩
  | 121 => ⟨S1700000x1, .i32⟩
  | 122 => ⟨S100000x32, .f32⟩
  | 123 => ⟨S1x32, .f32⟩
  | 124 => ⟨S100000x32, .f32⟩
  | 125 => ⟨S100000x32, .f32⟩
  | 126 => ⟨S_, .f32⟩
  | 127 => ⟨S100000x32, .f32⟩
  | _ => ⟨S100000x64, .f32⟩

abbrev hbmTy0_1 (i : Nat) : BufTy := match i % 128 with
  | 0 => ⟨S100000x32, .f32⟩
  | 1 => ⟨S100000x16, .f32⟩
  | 2 => ⟨S1x16, .f32⟩
  | 3 => ⟨S100000x16, .f32⟩
  | 4 => ⟨S100000x16, .f32⟩
  | 5 => ⟨S100000x16, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_call2_v0 : Ref sig .tc := ⟨.hbm, 84, rfl⟩
abbrev main_call2_v1 : Ref sig .tc := ⟨.hbm, 85, rfl⟩
abbrev main_v57 : Ref sig .tc := ⟨.hbm, 86, rfl⟩
abbrev main_c_12 : Ref sig .tc := ⟨.hbm, 87, rfl⟩
abbrev main_v58 : Ref sig .tc := ⟨.hbm, 88, rfl⟩
abbrev main_v59 : Ref sig .tc := ⟨.hbm, 89, rfl⟩
abbrev main_c_13 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_14 : Ref sig .tc := ⟨.hbm, 97, rfl⟩
abbrev main_v66 : Ref sig .tc := ⟨.hbm, 98, rfl⟩
abbrev main_v67 : Ref sig .tc := ⟨.hbm, 99, rfl⟩
abbrev main_c_15 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_16 : Ref sig .tc := ⟨.hbm, 108, rfl⟩
abbrev main_v75 : Ref sig .tc := ⟨.hbm, 109, rfl⟩
abbrev main_v76 : Ref sig .tc := ⟨.hbm, 110, rfl⟩
abbrev main_c_17 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_18 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_call3_cst : Ref sig .tc := ⟨.hbm, 126, rfl⟩
abbrev main_call3_v0 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S100000x64_S64x32_S100000x32_1_0_0_1_n_n_wf : DotDims.WF S100000x64 S64x32 S100000x32 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x32_S100000x32_1_0_0_1_n_n_wf : DotDims.WF S100000x32 S32x32 S100000x32 [1] [0] [0] [1] [] []
  dot_S100000x32_S32x16_S100000x16_1_0_0_1_n_n_wf : DotDims.WF S100000x32 S32x16 S100000x16 [1] [0] [0] [1] [] []

variable [Facts₀]

def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf

class Facts : Prop extends Facts₀ where

variable [Facts]
-- ==== Proof.KernelRun.lean ====
/-
  The idealized kernel's run with its RESULT named.

  Every weakly fair execution of @main — three stretches of host operations, the first dense
  product, the first aggregation, the first bias-and-maximum, the second dense product, the second
  aggregation, the second bias-and-maximum, and the head — terminates without a fault, and in the
  final state the result array holds what the last boundary of the fold through @main holds there
  (the head's write-backs folded over its entry contents), while every argument array is as
  launched.  The launch over the eleven segments is the frame's; what is added is that the final
  thread state, which holds EVERY unscoped buffer at the last boundary's contents, is read at the
  result's buffer as well as at the arguments'.
-/
import proofs.«160622_j56143812493986_1_alg».proof.Proof.Gen.KernelIdeal.Frame

set_option maxRecDepth 16384

noncomputable section

namespace Cert.Bridge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the idealized kernel: the result array ends at the last boundary's contents, the
    arguments unchanged. -/
theorem kernel_run : θ_run defs (onTc (τ := τ) (main (F := F))) ⟨m, fun _ => 0, ρ⟩ (fun r => ∀ c : Dev nD,
      r.2.mem ((c.tc : Thread nD τ).loc main_v65) = W11 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v65 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c)⟩)

end Cert.Bridge

end
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.Stages.lean ====
/-
  The reference's three kinds of stage, each as ONE function of whole arrays, read at an index.

  The reference network is  tanh (relu₂ · W₃ + b₃)  with  reluₖ = max (Â · (hₖ₋₁ · Wₖ) + bₖ, 0):
  a dense product of a [100000, K] array with a [K, B] weight (K = 64, 32, 32; B = 32, 32, 16),
  a bias row added to every node's row followed by a maximum with zero, and for the head a dense
  product, a bias row and a hyperbolic tangent.  (The normalised aggregation Â is the same chain
  of host operations in both programs and is never opened.)

  On the extended reals a dense product at (p, q) is the finite sum over k of l (p, k) · r (k, q);
  adding a broadcast row reads the row at the column q; the maximum with the zero word is max · 0.
-/
import proofs.«160622_j56143812493986_1_alg».proof.Proof.Gen.ReferenceIdeal.Read
import proofs.«160622_j56143812493986_1_alg».proof.Proof.LibDotRows
import Idealize.ShloMosaic.Lib.ValueIdx
import Idealize.ShloMosaic.PureOps.Ideal.Laws

noncomputable section

namespace Cert.RefStage

open Cert.ReferenceIdeal Cert.ReferenceIdeal.Read Idealize.ShloMosaic Idealize.ShloMosaic.TcCoe Idealize.ShloMosaic.ValueIdx

/-- Layer 1's dense product: [100000, 64] · [64, 32]. -/
def lin64 (l : FVec Ideal S100000x64 .f32) (r : FVec Ideal S64x32 .f32) : FVec Ideal S100000x32 .f32 :=
  Host.dotGeneral (F := Ideal) dot_S100000x64_S64x32_S100000x32_1_0_0_1_n_n none l r

/-- Layer 2's dense product: [100000, 32] · [32, 32]. -/
def lin32 (l : FVec Ideal S100000x32 .f32) (r : FVec Ideal S32x32 .f32) : FVec Ideal S100000x32 .f32 :=
  Host.dotGeneral (F := Ideal) dot_S100000x32_S32x32_S100000x32_1_0_0_1_n_n none l r

/-- The head's dense product: [100000, 32] · [32, 16]. -/
def lin16 (l : FVec Ideal S100000x32 .f32) (r : FVec Ideal S32x16 .f32) : FVec Ideal S100000x16 .f32 :=
  Host.dotGeneral (F := Ideal) dot_S100000x32_S32x16_S100000x16_1_0_0_1_n_n none l r

/-- A bias row added to every row of an aggregate, then the maximum with zero. -/
def biasRelu (a : FVec Ideal S100000x32 .f32) (b : FVec Ideal S32 .f32) : FVec Ideal S100000x32 .f32 :=
  maximumf (F := Ideal) (addf (F := Ideal) a (val_main_v47 (F := Ideal) b)) (val_main_call1_v0 (F := Ideal))

/-- The head: a dense product, a bias row, the hyperbolic tangent. -/
def head (l : FVec Ideal S100000x32 .f32) (r : FVec Ideal S32x16 .f32) (b : FVec Ideal S16 .f32) : FVec Ideal S100000x16 .f32 :=
  Host.tanh (F := Ideal) (addf (F := Ideal) (lin16 l r) (val_main_v93 (F := Ideal) b))

/-- Layer 1's product at (p, q) is the sum over k of l (p, k) · r (k, q). -/
theorem lin64_apply (l : FVec Ideal S100000x64 .f32) (r : FVec Ideal S64x32 .f32) (p : Fin 100000) (q : Fin 32) :
    lin64 l r (ix2 p q) = ∑ k : Fin 64, l (ix2 p k) * r (ix2 k q) := by
  unfold lin64
  simp only [Host.dotGeneral]
  rw [Ideal.dotGeneral_apply]
  dot_rows dot_S100000x64_S64x32_S100000x32_1_0_0_1_n_n S100000x64 S64x32 64

/-- Layer 2's product at (p, q) is the sum over k of l (p, k) · r (k, q). -/
theorem lin32_apply (l : FVec Ideal S100000x32 .f32) (r : FVec Ideal S32x32 .f32) (p : Fin 100000) (q : Fin 32) :
    lin32 l r (ix2 p q) = ∑ k : Fin 32, l (ix2 p k) * r (ix2 k q) := by
  unfold lin32
  simp only [Host.dotGeneral]
  rw [Ideal.dotGeneral_apply]
  dot_rows dot_S100000x32_S32x32_S100000x32_1_0_0_1_n_n S100000x32 S32x32 32

/-- The head's product at (p, q) is the sum over k of l (p, k) · r (k, q). -/
theorem lin16_apply (l : FVec Ideal S100000x32 .f32) (r : FVec Ideal S32x16 .f32) (p : Fin 100000) (q : Fin 16) :
    lin16 l r (ix2 p q) = ∑ k : Fin 32, l (ix2 p k) * r (ix2 k q) := by
  unfold lin16
  simp only [Host.dotGeneral]
  rw [Ideal.dotGeneral_apply]
  dot_rows dot_S100000x32_S32x16_S100000x16_1_0_0_1_n_n S100000x32 S32x16 32

/-- The bias-and-maximum stage at (p, q): the aggregate there plus the bias at column q, against zero. -/
theorem biasRelu_apply (a : FVec Ideal S100000x32 .f32) (b : FVec Ideal S32 .f32) (p : Fin 100000) (q : Fin 32) :
    biasRelu a b (ix2 p q) = max (a (ix2 p q) + b (ix1 q)) 0 := by
  show FloatOps.maximumf (F := Ideal) (FloatOps.addf (F := Ideal) (a (ix2 p q)) (val_main_v47 (F := Ideal) b (ix2 p q))) (val_main_call1_v0 (F := Ideal) (ix2 p q)) = _
  rw [val_main_v47_apply, val_main_v46_apply, val_main_call1_v0_apply, val_main_call1_cst_apply]
  have e : idx_main_v46 (idx_main_v47 (ix2 p q)) = ix1 q := funext fun d => Fin.ext (by match d with | ⟨0, _⟩ => rfl)
  rw [e]
  simp only [Ideal.maximumf_def, Ideal.addf_def, Ideal.ofBits_def, Ideal.ofBits_zero_f32]

/-- The head at (p, q): tanh of the product there plus the bias at column q. -/
theorem head_apply (l : FVec Ideal S100000x32 .f32) (r : FVec Ideal S32x16 .f32) (b : FVec Ideal S16 .f32) (p : Fin 100000) (q : Fin 16) :
    head l r b (ix2 p q) = Ideal.tanh ((∑ k : Fin 32, l (ix2 p k) * r (ix2 k q)) + b (ix1 q)) := by
  show FloatOps.hostUnary (F := Ideal) .tanh (FloatOps.addf (F := Ideal) (lin16 l r (ix2 p q)) (val_main_v93 (F := Ideal) b (ix2 p q))) = _
  rw [lin16_apply, val_main_v93_apply, val_main_v92_apply]
  have e : idx_main_v92 (idx_main_v93 (ix2 p q)) = ix1 q := funext fun d => Fin.ext (by match d with | ⟨0, _⟩ => rfl)
  rw [e]
  simp only [Ideal.hostUnary_tanh_def, Ideal.addf_def]

end Cert.RefStage

end
-- ==== Proof.RefNet.lean ====
/-
  The reference network as ONE composed function of its nine argument arrays.

  Both programs aggregate a feature array h over the graph in the same way: gather the rows h[src],
  scale row e by the symmetric-normalisation coefficient  dinv[src e] · w e · dinv[dst e]  (dinv the
  inverse square root of the weighted in-degree where that is positive, zero elsewhere; the edge list
  extended by one self-loop of weight one per node), and add row e into row dst e of a zero array.
  That chain of host operations is named `agg` here as a function of the edge arrays and of h, and is
  never opened: the certificate only uses that equal feature arrays aggregate to equal arrays.

  The reference computes the coefficients once per layer; the two computations are the same
  operations of the same edge arrays, hence the same array (`coeff_again`).  With that the
  reference's result is  head (relu₂, W₃, b₃),  reluₖ = biasRelu (agg (lin hₖ₋₁ Wₖ), bₖ).
-/
import proofs.«160622_j56143812493986_1_alg».proof.Proof.Stages

noncomputable section

namespace Cert.RefStage

open Cert.ReferenceIdeal Cert.ReferenceIdeal.Read Idealize.ShloMosaic Idealize.ShloMosaic.TcCoe

/-- The normalised aggregation of a feature array over the graph with self-loops: gather by source,
    scale by the coefficient, scatter-add by destination into zeros. -/
def agg (x1 : (⟨S2x1600000, .i32⟩ : BufTy).Contents (Elt Ideal)) (x2 : (⟨S1600000, .f32⟩ : BufTy).Contents (Elt Ideal))
    (h : FVec Ideal S100000x32 .f32) : FVec Ideal S100000x32 .f32 :=
  Host.scatterAdd (F := Ideal) scatter_S100000x32_S1700000x1_S1700000x32_1_0_0_1 (val_main_v43 (F := Ideal)) (val_main_v44 (F := Ideal) x1)
    (mulf (F := Ideal) (val_main_v41 (F := Ideal) x1 x2)
      (Host.gather gather_S100000x32_S1700000x1_S1700000x32_1_0_n_n_0_1_132 h (val_main_v39 (F := Ideal) x1)))

/-- The whole network: two aggregated layers and the head. -/
def net (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S32x16, .f32⟩ : BufTy).Contents (Elt Ideal)) (x8 : (⟨S16, .f32⟩ : BufTy).Contents (Elt Ideal)) : FVec Ideal S100000x16 .f32 :=
  head (biasRelu (agg x1 x2 (lin32 (biasRelu (agg x1 x2 (lin64 x0 x3)) x4) x5)) x6) x7 x8

/-- The second layer's coefficients are the first layer's: the same operations of the same edge arrays. -/
theorem coeff_again (x1 : (⟨S2x1600000, .i32⟩ : BufTy).Contents (Elt Ideal)) (x2 : (⟨S1600000, .f32⟩ : BufTy).Contents (Elt Ideal)) :
    val_main_v73 (F := Ideal) x1 x2 = val_main_v32 (F := Ideal) x1 x2 := rfl

theorem coeff_rows_again (x1 : (⟨S2x1600000, .i32⟩ : BufTy).Contents (Elt Ideal)) (x2 : (⟨S1600000, .f32⟩ : BufTy).Contents (Elt Ideal)) :
    val_main_v82 (F := Ideal) x1 x2 = val_main_v41 (F := Ideal) x1 x2 := by
  unfold val_main_v82 val_main_v41 val_main_v74 val_main_v33
  rw [coeff_again]

/-- The second layer's wrapped source indices, destination indices, zero array, bias rows and zero
    splat are the first layer's. -/
theorem src_again (x1 : (⟨S2x1600000, .i32⟩ : BufTy).Contents (Elt Ideal)) : val_main_v80 (F := Ideal) x1 = val_main_v39 (F := Ideal) x1 := rfl
theorem dst_again (x1 : (⟨S2x1600000, .i32⟩ : BufTy).Contents (Elt Ideal)) : val_main_v85 (F := Ideal) x1 = val_main_v44 (F := Ideal) x1 := rfl
theorem zeros_again : val_main_v84 (F := Ideal) = val_main_v43 (F := Ideal) := rfl
theorem bias_rows_again (x6 : (⟨S32, .f32⟩ : BufTy).Contents (Elt Ideal)) : val_main_v88 (F := Ideal) x6 = val_main_v47 (F := Ideal) x6 := rfl
theorem zero_splat_again : val_main_call3_v0 (F := Ideal) = val_main_call1_v0 (F := Ideal) := rfl

/-- The reference's result, stage by stage, is the composed network. -/
theorem ref_eq_net (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S32x16, .f32⟩ : BufTy).Contents (Elt Ideal)) (x8 : (⟨S16, .f32⟩ : BufTy).Contents (Elt Ideal)) :
    val_main_v95 (F := Ideal) x0 x1 x2 x3 x4 x5 x6 x7 x8 = net x0 x1 x2 x3 x4 x5 x6 x7 x8 := by
  unfold net head biasRelu agg lin16 lin32 lin64
  unfold val_main_v95 val_main_v94 val_main_v91 val_main_v90 val_main_v89 val_main_v86 val_main_v83 val_main_v81 val_main_v50
    val_main_v49 val_main_v48 val_main_v45 val_main_v42 val_main_v40 val_main_v9
  rw [zeros_again, dst_again, coeff_rows_again, src_again, bias_rows_again, zero_splat_again]

end Cert.RefStage

end
-- ==== Proof.LibCatPair.lean ====
/-
  A two-piece concatenation whose pieces can be rewritten.

  The library's concatenation takes a list of (shape, contents) pairs and a side condition stated over the list's
  shapes; because the condition's type mentions the list, a simplifier pass does not rewrite the contents inside it.
  `catPair` is the same function of two pieces with the condition stated over the two shapes alone, so the pieces are
  ordinary arguments; `concatenate_pair_eq` turns one into the other and holds by unfolding.
-/
import Idealize.ShloMosaic.PureOps

noncomputable section

namespace Cert.Lib.CatPair

open Idealize.ShloMosaic

/-- The concatenation of two pieces along axis `a`, its side condition stated over the two shapes. -/
def catPair {α : Type} (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

/-- The library's concatenation of a two-element list is `catPair` of the two pieces. -/
theorem concatenate_pair_eq {α : Type} (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = catPair t a s₁ s₂ x₁ x₂ h := rfl

end Cert.Lib.CatPair

end
-- ==== Proof.Host.lean ====
/-
  The host side of the idealized kernel's @main, read at the buffers the regions and the later
  stretches use.

  @main is a fold through eleven boundaries: three stretches of host operations (the edge list with
  self-loops, the weighted in-degree and its inverse square root, the coefficient of every edge),
  the first dense product, the first aggregation (with the reshape of the first bias to a row), the
  first bias-and-maximum, the second dense product, the second aggregation, the second
  bias-and-maximum, the reshape of the head's bias, the head.  A buffer that a stretch does not write
  and that is not an array of a region keeps its contents across it; so every argument reaches its
  reader as launched, and the source indices, destination indices and coefficients computed by the
  prelude are what both aggregations read.

  The prelude's three arrays and the two aggregations are the reference's own chains of operations
  applied to the launch contents of the edge arrays (and, for an aggregation, to the dense product
  that precedes it): the same operations in the same order, so the equations hold by unfolding names.
-/
import proofs.«160622_j56143812493986_1_alg».proof.Proof.Gen.KernelIdeal.Frame
import proofs.«160622_j56143812493986_1_alg».proof.Proof.RefNet
import proofs.«160622_j56143812493986_1_alg».proof.Proof.LibCatPair

set_option maxRecDepth 16384

noncomputable section

namespace Cert.Bridge

open Idealize.ShloMosaic Idealize.ShloMosaic.TcCoe Idealize.SL.Sem
open Cert.KernelIdeal Cert.KernelIdeal.Gen
open Cert.RefStage

variable (m : (ℓ : Loc nD τ sig) → Buf (Elt Ideal) ℓ) (ρ : Dev nD → PrngReg) (c : Dev nD)

/-- A stretch of host operations keeps the contents of a buffer none of its operations writes. -/
local macro "keeps_host " ops:ident buf:ident : term => `(
  StableHlo.after_of_forall_not_mem (b := Proc.devRef .tc $buf) _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## What is kept -/

/-- The node features reach the first dense product as launched. -/
theorem arg0_at3 : W3 m ρ c (Proc.devRef .tc main_arg0) = m ((c : Thread nD τ).loc main_arg0) :=
  calc W3 m ρ c (Proc.devRef .tc main_arg0)
    _ = W2 m ρ c (Proc.devRef .tc main_arg0) := keeps_host hostOps0_2 main_arg0
    _ = W1 m ρ c (Proc.devRef .tc main_arg0) := keeps_host hostOps0_1 main_arg0
    _ = W0 m ρ c (Proc.devRef .tc main_arg0) := keeps_host hostOps0 main_arg0
    _ = m ((c : Thread nD τ).loc main_arg0) := rfl

/-- The first weight reaches the first dense product as launched. -/
theorem arg3_at3 : W3 m ρ c (Proc.devRef .tc main_arg3) = m ((c : Thread nD τ).loc main_arg3) :=
  calc W3 m ρ c (Proc.devRef .tc main_arg3)
    _ = W2 m ρ c (Proc.devRef .tc main_arg3) := keeps_host hostOps0_2 main_arg3
    _ = W1 m ρ c (Proc.devRef .tc main_arg3) := keeps_host hostOps0_1 main_arg3
    _ = W0 m ρ c (Proc.devRef .tc main_arg3) := keeps_host hostOps0 main_arg3
    _ = m ((c : Thread nD τ).loc main_arg3) := rfl

/-- The first bias reaches the stretch that reshapes it as launched. -/
theorem arg4_at4 : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := keeps_host hostOps0_2 main_arg4
    _ = W1 m ρ c (Proc.devRef .tc main_arg4) := keeps_host hostOps0_1 main_arg4
    _ = W0 m ρ c (Proc.devRef .tc main_arg4) := keeps_host hostOps0 main_arg4
    _ = m ((c : Thread nD τ).loc main_arg4) := rfl

/-- The second weight reaches the second dense product as launched. -/
theorem arg5_at6 : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := keeps_host hostOps1 main_arg5
    _ = W3 m ρ c (Proc.devRef .tc main_arg5) := W4_of_ne m ρ c main_arg5 (by decide)
    _ = W2 m ρ c (Proc.devRef .tc main_arg5) := keeps_host hostOps0_2 main_arg5
    _ = W1 m ρ c (Proc.devRef .tc main_arg5) := keeps_host hostOps0_1 main_arg5
    _ = W0 m ρ c (Proc.devRef .tc main_arg5) := keeps_host hostOps0 main_arg5
    _ = m ((c : Thread nD τ).loc main_arg5) := rfl

/-- The second bias reaches the stretch that reshapes it as launched. -/
theorem arg6_at7 : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := keeps_host hostOps1 main_arg6
    _ = W3 m ρ c (Proc.devRef .tc main_arg6) := W4_of_ne m ρ c main_arg6 (by decide)
    _ = W2 m ρ c (Proc.devRef .tc main_arg6) := keeps_host hostOps0_2 main_arg6
    _ = W1 m ρ c (Proc.devRef .tc main_arg6) := keeps_host hostOps0_1 main_arg6
    _ = W0 m ρ c (Proc.devRef .tc main_arg6) := keeps_host hostOps0 main_arg6
    _ = m ((c : Thread nD τ).loc main_arg6) := rfl

/-- The head's weight reaches the head as launched. -/
theorem arg7_at10 : W10 m ρ c (Proc.devRef .tc main_arg7) = m ((c : Thread nD τ).loc main_arg7) :=
  calc W10 m ρ c (Proc.devRef .tc main_arg7)
    _ = W9 m ρ c (Proc.devRef .tc main_arg7) := keeps_host hostOps4 main_arg7
    _ = W8 m ρ c (Proc.devRef .tc main_arg7) := W9_of_ne m ρ c main_arg7 (by decide)
    _ = W7 m ρ c (Proc.devRef .tc main_arg7) := keeps_host hostOps3 main_arg7
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := keeps_host hostOps1 main_arg7
    _ = W3 m ρ c (Proc.devRef .tc main_arg7) := W4_of_ne m ρ c main_arg7 (by decide)
    _ = W2 m ρ c (Proc.devRef .tc main_arg7) := keeps_host hostOps0_2 main_arg7
    _ = W1 m ρ c (Proc.devRef .tc main_arg7) := keeps_host hostOps0_1 main_arg7
    _ = W0 m ρ c (Proc.devRef .tc main_arg7) := keeps_host hostOps0 main_arg7
    _ = m ((c : Thread nD τ).loc main_arg7) := rfl

/-- The head's bias reaches the stretch that reshapes it as launched. -/
theorem arg8_at9 : W9 m ρ c (Proc.devRef .tc main_arg8) = m ((c : Thread nD τ).loc main_arg8) :=
  calc W9 m ρ c (Proc.devRef .tc main_arg8)
    _ = W8 m ρ c (Proc.devRef .tc main_arg8) := W9_of_ne m ρ c main_arg8 (by decide)
    _ = W7 m ρ c (Proc.devRef .tc main_arg8) := keeps_host hostOps3 main_arg8
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := keeps_host hostOps1 main_arg8
    _ = W3 m ρ c (Proc.devRef .tc main_arg8) := W4_of_ne m ρ c main_arg8 (by decide)
    _ = W2 m ρ c (Proc.devRef .tc main_arg8) := keeps_host hostOps0_2 main_arg8
    _ = W1 m ρ c (Proc.devRef .tc main_arg8) := keeps_host hostOps0_1 main_arg8
    _ = W0 m ρ c (Proc.devRef .tc main_arg8) := keeps_host hostOps0 main_arg8
    _ = m ((c : Thread nD τ).loc main_arg8) := rfl

/-- The source indices are untouched by the first dense product. -/
theorem src_at4 : W4 m ρ c (Proc.devRef .tc main_v5) = W3 m ρ c (Proc.devRef .tc main_v5) :=
  calc W4 m ρ c (Proc.devRef .tc main_v5)
    _ = W3 m ρ c (Proc.devRef .tc main_v5) := W4_of_ne m ρ c main_v5 (by decide)

/-- The destination indices are untouched by the first dense product. -/
theorem dst_at4 : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

/-- The coefficients are untouched by the first dense product. -/
theorem coeff_at4 : W4 m ρ c (Proc.devRef .tc main_v31) = W3 m ρ c (Proc.devRef .tc main_v31) :=
  calc W4 m ρ c (Proc.devRef .tc main_v31)
    _ = W3 m ρ c (Proc.devRef .tc main_v31) := W4_of_ne m ρ c main_v31 (by decide)

/-- The source indices are still the prelude's at the second aggregation. -/
theorem src_at7 : W7 m ρ c (Proc.devRef .tc main_v5) = W3 m ρ c (Proc.devRef .tc main_v5) :=
  calc W7 m ρ c (Proc.devRef .tc main_v5)
    _ = W6 m ρ c (Proc.devRef .tc main_v5) := W7_of_ne m ρ c main_v5 (by decide)
    _ = W5 m ρ c (Proc.devRef .tc main_v5) := W6_of_ne m ρ c main_v5 (by decide)
    _ = W4 m ρ c (Proc.devRef .tc main_v5) := keeps_host hostOps1 main_v5
    _ = W3 m ρ c (Proc.devRef .tc main_v5) := W4_of_ne m ρ c main_v5 (by decide)

/-- The destination indices are still the prelude's at the second aggregation. -/
theorem dst_at7 : W7 m ρ c (Proc.devRef .tc main_v6) = W3 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := keeps_host hostOps1 main_v6
    _ = W3 m ρ c (Proc.devRef .tc main_v6) := W4_of_ne m ρ c main_v6 (by decide)

/-- The coefficients are still the prelude's at the second aggregation. -/
theorem coeff_at7 : W7 m ρ c (Proc.devRef .tc main_v31) = W3 m ρ c (Proc.devRef .tc main_v31) :=
  calc W7 m ρ c (Proc.devRef .tc main_v31)
    _ = W6 m ρ c (Proc.devRef .tc main_v31) := W7_of_ne m ρ c main_v31 (by decide)
    _ = W5 m ρ c (Proc.devRef .tc main_v31) := W6_of_ne m ρ c main_v31 (by decide)
    _ = W4 m ρ c (Proc.devRef .tc main_v31) := keeps_host hostOps1 main_v31
    _ = W3 m ρ c (Proc.devRef .tc main_v31) := W4_of_ne m ρ c main_v31 (by decide)

/-- The second layer's output is untouched by the reshape of the head's bias. -/
theorem h2_at10 : W10 m ρ c (Proc.devRef .tc main_v63) = W9 m ρ c (Proc.devRef .tc main_v63) :=
  calc W10 m ρ c (Proc.devRef .tc main_v63)
    _ = W9 m ρ c (Proc.devRef .tc main_v63) := keeps_host hostOps4 main_v63

/-! ## The prelude: the edge list with self-loops and the coefficients

Read boundary by boundary: after the first stretch (the edge list with self-loops, the weights with a one per
self-loop, the weighted in-degree, its positivity and its inverse square root), after the selection of the inverse
square root where the degree is positive and zero elsewhere, and after the third stretch (the indices wrapped into
range, the two gathers and the two products). -/

/-- The source indices: the first row of the edge index followed by 0, 1, …, 99999. -/
theorem src_at1 : W1 m ρ c (Proc.devRef .tc main_v5) = Cert.ReferenceIdeal.Read.val_main_v3 (F := Ideal) (m ((c : Thread nD τ).loc main_arg1)) := by
  show StableHlo.after hostOps0 (W0 m ρ c) (Proc.devRef .tc main_v5) = _
  simp only [hostOps0, Cert.Lib.CatPair.concatenate_pair_eq]
  after_results_simp
  rfl

/-- The destination indices: the second row of the edge index followed by 0, 1, …, 99999. -/
theorem dst_at1 : W1 m ρ c (Proc.devRef .tc main_v6) = Cert.ReferenceIdeal.Read.val_main_v6 (F := Ideal) (m ((c : Thread nD τ).loc main_arg1)) := by
  show StableHlo.after hostOps0 (W0 m ρ c) (Proc.devRef .tc main_v6) = _
  simp only [hostOps0, Cert.Lib.CatPair.concatenate_pair_eq]
  after_results_simp
  rfl

/-- The weights: the edge weights followed by a one per self-loop. -/
theorem ew_at1 : W1 m ρ c (Proc.devRef .tc main_v8) = Cert.ReferenceIdeal.Read.val_main_v8 (F := Ideal) (m ((c : Thread nD τ).loc main_arg2)) := by
  show StableHlo.after hostOps0 (W0 m ρ c) (Proc.devRef .tc main_v8) = _
  simp only [hostOps0, Cert.Lib.CatPair.concatenate_pair_eq]
  after_results_simp
  rfl

/-- Where the weighted in-degree is positive. -/
theorem pos_at1 : W1 m ρ c (Proc.devRef .tc main_v13) = Cert.ReferenceIdeal.Read.val_main_v14 (F := Ideal) (m ((c : Thread nD τ).loc main_arg1)) (m ((c : Thread nD τ).loc main_arg2)) := by
  show StableHlo.after hostOps0 (W0 m ρ c) (Proc.devRef .tc main_v13) = _
  simp only [hostOps0, Cert.Lib.CatPair.concatenate_pair_eq]
  after_results_simp
  rfl

/-- The inverse square root of the weighted in-degree. -/
theorem rsqrt_at1 : W1 m ρ c (Proc.devRef .tc main_v14) = Cert.ReferenceIdeal.Read.val_main_v15 (F := Ideal) (m ((c : Thread nD τ).loc main_arg1)) (m ((c : Thread nD τ).loc main_arg2)) := by
  show StableHlo.after hostOps0 (W0 m ρ c) (Proc.devRef .tc main_v14) = _
  simp only [hostOps0, Cert.Lib.CatPair.concatenate_pair_eq]
  after_results_simp
  rfl

/-- The zero the selection falls back to. -/
theorem zero_at1 : W1 m ρ c (Proc.devRef .tc main_cst_2) = Cert.ReferenceIdeal.Read.val_main_cst_2 (F := Ideal) := by
  show StableHlo.after hostOps0 (W0 m ρ c) (Proc.devRef .tc main_cst_2) = _
  simp only [hostOps0, Cert.Lib.CatPair.concatenate_pair_eq]
  after_results_simp
  rfl

/-- dinv: the inverse square root of the degree where the degree is positive, zero elsewhere. The selection's
    operands are the first boundary's arrays, taken here as they stand. -/
theorem dinv_at2 : W2 m ρ c (Proc.devRef .tc main_v15) = Cert.ReferenceIdeal.Read.val_main_v16 (F := Ideal) (m ((c : Thread nD τ).loc main_arg1)) (m ((c : Thread nD τ).loc main_arg2)) := by
  show StableHlo.after hostOps0_1 (W1 m ρ c) (Proc.devRef .tc main_v15) = _
  have e13 := pos_at1 m ρ c
  have e14 := rsqrt_at1 m ρ c
  have e0 := zero_at1 m ρ c
  generalize W1 m ρ c = G at e13 e14 e0 ⊢
  simp only [hostOps0_1]
  after_results_simp
  show select (G (Proc.devRef .tc main_v13) : (⟨S100000, .i1⟩ : BufTy).Contents (Elt Ideal))
      (G (Proc.devRef .tc main_v14) : (⟨S100000, .f32⟩ : BufTy).Contents (Elt Ideal))
      (broadcastInDim S100000 ![] bcast_S_S100000 (id (G (Proc.devRef .tc main_cst_2) : (⟨S_, .f32⟩ : BufTy).Contents (Elt Ideal)))) = _
  rw [e13, e14, e0]
  rfl

/-- The source indices, destination indices and weights pass the selection untouched. -/
theorem src_at2 : W2 m ρ c (Proc.devRef .tc main_v5) = Cert.ReferenceIdeal.Read.val_main_v3 (F := Ideal) (m ((c : Thread nD τ).loc main_arg1)) :=
  (keeps_host hostOps0_1 main_v5).trans (src_at1 m ρ c)
theorem dst_at2 : W2 m ρ c (Proc.devRef .tc main_v6) = Cert.ReferenceIdeal.Read.val_main_v6 (F := Ideal) (m ((c : Thread nD τ).loc main_arg1)) :=
  (keeps_host hostOps0_1 main_v6).trans (dst_at1 m ρ c)
theorem ew_at2 : W2 m ρ c (Proc.devRef .tc main_v8) = Cert.ReferenceIdeal.Read.val_main_v8 (F := Ideal) (m ((c : Thread nD τ).loc main_arg2)) :=
  (keeps_host hostOps0_1 main_v8).trans (ew_at1 m ρ c)

/-- The source and destination indices pass the third stretch untouched. -/
theorem src_at3 : W3 m ρ c (Proc.devRef .tc main_v5) = Cert.ReferenceIdeal.Read.val_main_v3 (F := Ideal) (m ((c : Thread nD τ).loc main_arg1)) :=
  (keeps_host hostOps0_2 main_v5).trans (src_at2 m ρ c)
theorem dst_at3 : W3 m ρ c (Proc.devRef .tc main_v6) = Cert.ReferenceIdeal.Read.val_main_v6 (F := Ideal) (m ((c : Thread nD τ).loc main_arg1)) :=
  (keeps_host hostOps0_2 main_v6).trans (dst_at2 m ρ c)

/-- The coefficient of every edge after the prelude: dinv at its source, times its weight, times dinv at its
    destination — the third stretch's operations of the second boundary's four arrays. -/
theorem coeff_at3 : W3 m ρ c (Proc.devRef .tc main_v31) = Cert.ReferenceIdeal.Read.val_main_v32 (F := Ideal) (m ((c : Thread nD τ).loc main_arg1)) (m ((c : Thread nD τ).loc main_arg2)) := by
  show StableHlo.after hostOps0_2 (W2 m ρ c) (Proc.devRef .tc main_v31) = _
  have e15 := dinv_at2 m ρ c
  have e5 := src_at2 m ρ c
  have e6 := dst_at2 m ρ c
  have e8 := ew_at2 m ρ c
  generalize W2 m ρ c = G at e15 e5 e6 e8 ⊢
  simp only [hostOps0_2]
  after_results_simp
  rw [e15, e5, e6, e8]
  rfl

end Cert.Bridge

end
-- ==== Proof.Chain.lean ====
/-
  The idealized kernel's result as the composed network of the launch contents of its arguments.

  Between the regions: each aggregation stretch gathers the rows of the preceding dense product by
  source, scales row e by the prelude's coefficient of edge e and adds it into row dst e of zeros —
  the reference's aggregation of that product —, and reshapes the layer's bias vector to a row; the
  last stretch reshapes the head's bias.

  The walk: the first dense product of the features and the first weight; its aggregation; the
  first bias added and the maximum with zero; the second dense product; its aggregation; the second
  bias and maximum; the head.  Each region's output array is stated as a hypothesis here (that the
  array a region leaves is the corresponding stage of the reference applied to the arrays the region
  finds), so that this module depends on no region's proof; the assembly supplies the five facts.
-/
import proofs.«160622_j56143812493986_1_alg».proof.Proof.Host

set_option maxRecDepth 16384

noncomputable section

namespace Cert.Bridge

open Idealize.ShloMosaic Idealize.ShloMosaic.TcCoe Idealize.SL.Sem
open Cert.KernelIdeal Cert.KernelIdeal.Gen
open Cert.RefStage

variable (m : (ℓ : Loc nD τ sig) → Buf (Elt Ideal) ℓ) (ρ : Dev nD → PrngReg) (c : Dev nD)

/-! ## The stretches between the regions -/

/-- The first aggregation: of whatever the first dense product left. -/
theorem agg1_at5 (h : FVec Ideal S100000x32 .f32) (hh : W4 m ρ c (Proc.devRef .tc main_v32) = h) :
    W5 m ρ c (Proc.devRef .tc main_v45) = agg (m ((c : Thread nD τ).loc main_arg1)) (m ((c : Thread nD τ).loc main_arg2)) h := by
  show StableHlo.after hostOps1 (W4 m ρ c) (Proc.devRef .tc main_v45) = _
  simp only [hostOps1]
  after_results_simp
  rw [dst_at4 m ρ c, coeff_at4 m ρ c, src_at4 m ρ c, dst_at3 m ρ c, coeff_at3 m ρ c, src_at3 m ρ c, hh]
  rfl

/-- The first bias, reshaped to a row, as the first bias-and-maximum finds it. -/
theorem bias1_at5 : W5 m ρ c (Proc.devRef .tc main_v46) = shapeCast S1x32 (m ((c : Thread nD τ).loc main_arg4)) shapeCasts_S32_S1x32 := by
  show StableHlo.after hostOps1 (W4 m ρ c) (Proc.devRef .tc main_v46) = _
  simp only [hostOps1]
  after_results_simp
  rw [arg4_at4 m ρ c]
  rfl

/-- The second aggregation: of whatever the second dense product left. -/
theorem agg2_at8 (h : FVec Ideal S100000x32 .f32) (hh : W7 m ρ c (Proc.devRef .tc main_v48) = h) :
    W8 m ρ c (Proc.devRef .tc main_v61) = agg (m ((c : Thread nD τ).loc main_arg1)) (m ((c : Thread nD τ).loc main_arg2)) h := by
  show StableHlo.after hostOps3 (W7 m ρ c) (Proc.devRef .tc main_v61) = _
  simp only [hostOps3]
  after_results_simp
  rw [dst_at7 m ρ c, coeff_at7 m ρ c, src_at7 m ρ c, dst_at3 m ρ c, coeff_at3 m ρ c, src_at3 m ρ c, hh]
  rfl

/-- The second bias, reshaped to a row, as the second bias-and-maximum finds it. -/
theorem bias2_at8 : W8 m ρ c (Proc.devRef .tc main_v62) = shapeCast S1x32 (m ((c : Thread nD τ).loc main_arg6)) shapeCasts_S32_S1x32 := by
  show StableHlo.after hostOps3 (W7 m ρ c) (Proc.devRef .tc main_v62) = _
  simp only [hostOps3]
  after_results_simp
  rw [arg6_at7 m ρ c]
  rfl

/-- The head's bias, reshaped to a row, as the head finds it. -/
theorem bias3_at10 : W10 m ρ c (Proc.devRef .tc main_v64) = shapeCast S1x16 (m ((c : Thread nD τ).loc main_arg8)) shapeCasts_S16_S1x16 := by
  show StableHlo.after hostOps4 (W9 m ρ c) (Proc.devRef .tc main_v64) = _
  simp only [hostOps4]
  after_results_simp
  rw [arg8_at9 m ρ c]
  rfl

/-! ## The walk -/

set_option maxHeartbeats 2000000 in
/-- The result array at the last boundary is the composed network of the arguments as launched, given
    that each region leaves the reference's stage of the arrays it finds. -/
theorem kernel_value
    (r0 : ∀ (V : (c : Dev nD) → (b : Ref sig .tc) → Buf (Elt Ideal) ((c : Thread nD τ).loc b)) (c : Dev nD),
      (dat0 (F := Ideal) V c).arrAt 2 cfg0.N = lin64 (V c main_arg0) (V c main_arg3))
    (r1 : ∀ (V : (c : Dev nD) → (b : Ref sig .tc) → Buf (Elt Ideal) ((c : Thread nD τ).loc b)) (c : Dev nD) (b : FVec Ideal S32 .f32),
      V c main_v46 = shapeCast S1x32 b shapeCasts_S32_S1x32 →
      (dat1 (F := Ideal) V c).arrAt 2 cfg1.N = biasRelu (V c main_v45) b)
    (r2 : ∀ (V : (c : Dev nD) → (b : Ref sig .tc) → Buf (Elt Ideal) ((c : Thread nD τ).loc b)) (c : Dev nD),
      (dat2 (F := Ideal) V c).arrAt 2 cfg2.N = lin32 (V c main_v47) (V c main_arg5))
    (r3 : ∀ (V : (c : Dev nD) → (b : Ref sig .tc) → Buf (Elt Ideal) ((c : Thread nD τ).loc b)) (c : Dev nD) (b : FVec Ideal S32 .f32),
      V c main_v62 = shapeCast S1x32 b shapeCasts_S32_S1x32 →
      (dat3 (F := Ideal) V c).arrAt 2 cfg3.N = biasRelu (V c main_v61) b)
    (r4 : ∀ (V : (c : Dev nD) → (b : Ref sig .tc) → Buf (Elt Ideal) ((c : Thread nD τ).loc b)) (c : Dev nD) (b : FVec Ideal S16 .f32),
      V c main_v64 = shapeCast S1x16 b shapeCasts_S16_S1x16 →
      (dat4 (F := Ideal) V c).arrAt 3 cfg4.N = head (V c main_v63) (V c main_arg7) b) :
    W11 m ρ c (Proc.devRef .tc main_v65)
      = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have h1 : W4 m ρ c (Proc.devRef .tc main_v32) = lin64 (m ((c : Thread nD τ).loc main_arg0)) (m ((c : Thread nD τ).loc main_arg3)) :=
    (W4_arr m ρ c 2).trans ((r0 (V3 m ρ) c).trans (congrArg₂ lin64 (arg0_at3 m ρ c) (arg3_at3 m ρ c)))
  have a1 := agg1_at5 m ρ c _ h1
  have h2 : W6 m ρ c (Proc.devRef .tc main_v47) = biasRelu (agg (m ((c : Thread nD τ).loc main_arg1)) (m ((c : Thread nD τ).loc main_arg2)) (lin64 (m ((c : Thread nD τ).loc main_arg0)) (m ((c : Thread nD τ).loc main_arg3)))) (m ((c : Thread nD τ).loc main_arg4)) :=
    (W6_arr m ρ c 2).trans ((r1 (V5 m ρ) c (m ((c : Thread nD τ).loc main_arg4)) (bias1_at5 m ρ c)).trans (congrArg (fun a => biasRelu a (m ((c : Thread nD τ).loc main_arg4))) a1))
  have h3 : W7 m ρ c (Proc.devRef .tc main_v48) = lin32 (biasRelu (agg (m ((c : Thread nD τ).loc main_arg1)) (m ((c : Thread nD τ).loc main_arg2)) (lin64 (m ((c : Thread nD τ).loc main_arg0)) (m ((c : Thread nD τ).loc main_arg3)))) (m ((c : Thread nD τ).loc main_arg4))) (m ((c : Thread nD τ).loc main_arg5)) :=
    (W7_arr m ρ c 2).trans ((r2 (V6 m ρ) c).trans (congrArg₂ lin32 h2 (arg5_at6 m ρ c)))
  have a2 := agg2_at8 m ρ c _ h3
  have h4 : W9 m ρ c (Proc.devRef .tc main_v63) = biasRelu (agg (m ((c : Thread nD τ).loc main_arg1)) (m ((c : Thread nD τ).loc main_arg2)) (lin32 (biasRelu (agg (m ((c : Thread nD τ).loc main_arg1)) (m ((c : Thread nD τ).loc main_arg2)) (lin64 (m ((c : Thread nD τ).loc main_arg0)) (m ((c : Thread nD τ).loc main_arg3)))) (m ((c : Thread nD τ).loc main_arg4))) (m ((c : Thread nD τ).loc main_arg5)))) (m ((c : Thread nD τ).loc main_arg6)) :=
    (W9_arr m ρ c 2).trans ((r3 (V8 m ρ) c (m ((c : Thread nD τ).loc main_arg6)) (bias2_at8 m ρ c)).trans (congrArg (fun a => biasRelu a (m ((c : Thread nD τ).loc main_arg6))) a2))
  have h5 := (h2_at10 m ρ c).trans h4
  have h6 : W11 m ρ c (Proc.devRef .tc main_v65) = head (W10 m ρ c (Proc.devRef .tc main_v63)) (W10 m ρ c (Proc.devRef .tc main_arg7)) (m ((c : Thread nD τ).loc main_arg8)) :=
    (W11_arr m ρ c 3).trans (r4 (V10 m ρ) c (m ((c : Thread nD τ).loc main_arg8)) (bias3_at10 m ρ c))
  rw [h6, h5, arg7_at10 m ρ c]
  rfl

end Cert.Bridge

end
-- ==== Proof.Region0.lean ====
import proofs.«160622_j56143812493986_1_alg».proof.Proof.Gen.KernelIdeal.Frame
import proofs.«160622_j56143812493986_1_alg».proof.Proof.Stages
import proofs.«160622_j56143812493986_1_alg».proof.Proof.LibDotRows
import Idealize.ShloMosaic.Lib.Pipeline.Value
import Idealize.ShloMosaic.Lib.ValueIdx
import Idealize.ShloMosaic.PureOps.Ideal.Laws

noncomputable section

namespace Cert.Bridge

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

/-! # Region 0: the dense product of the node features with the first weight

The grid has 25 points. At point t the output window's block is rows 4000·t … 4000·t + 3999 (all 32 columns) of the
[100000, 32] result, the row operand's block is the same rows (all 64 columns) of the [100000, 64] features, and the
weight's block is the whole [64, 32] weight. The body's payload at (p, q) of a block is the sum over k of
block (p, k) · weight (k, q); so what point t writes back is rows 4000·t … of the whole-array product, and the 25
blocks tile the result. -/

theorem hz0 : (![0, 0] : Fin 2 → Nat) = fun _ => 0 := funext fun a => by fin_cases a <;> rfl

/-- The body's payload at (p, q): rounding to the narrower format is the identity on the extended reals, the
    accumulator is the zero splat, and the contraction runs over the row operand's columns. -/
theorem pay0_apply (l : Vec Ideal S4000x64 .f32) (r : Vec Ideal S64x32 .f32) (p : Fin 4000) (q : Fin 32) :
    k0_pay1 (F := Ideal) l r (ValueIdx.ix2 p q) = ∑ k : Fin 64, l (ValueIdx.ix2 p k) * r (ValueIdx.ix2 k q) := by
  unfold k0_pay1
  refine (Ideal.matmul_constant_zero_apply dot_S4000x64_S64x32_S4000x32_1_0_0_1_n_n none _ _ (ValueIdx.ix2 p q)).trans ?_
  show ∑ c : dot_S4000x64_S64x32_S4000x32_1_0_0_1_n_n.contr.Idx, l (dot_S4000x64_S64x32_S4000x32_1_0_0_1_n_n.lhsIdx (ValueIdx.ix2 p q) c) * r (dot_S4000x64_S64x32_S4000x32_1_0_0_1_n_n.rhsIdx (ValueIdx.ix2 p q) c) = _
  dot_rows dot_S4000x64_S64x32_S4000x32_1_0_0_1_n_n S4000x64 S64x32 64

/-- The block index maps over the grid: the row operand's and the result's blocks move down one block of rows per
    point and stay at column block 0; the weight's block index is (0, 0) at every point. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A block of rows times the whole weight is the same rows of the whole product: if the row block x0 is rows
    4000·n … of A and the weight block x1 is W, the payload at j is the product of A and W at the entry i that sits
    4000·n rows below j. -/
theorem blk0_value (A : FVec Ideal S100000x64 .f32) (W : FVec Ideal S64x32 .f32)
    (x0 : Vec Ideal S4000x64 .f32) (x1 : Vec Ideal S64x32 .f32) (n : Nat)
    (hx0 : ∀ (p : Fin 4000) (k : Fin 64) (P : Fin 100000), P.val = 4000 * n + p.val → x0 (ValueIdx.ix2 p k) = A (ValueIdx.ix2 P k))
    (hx1 : ∀ (k : Fin 64) (q : Fin 32), x1 (ValueIdx.ix2 k q) = W (ValueIdx.ix2 k q))
    (j : S4000x32.Idx) (i : S100000x32.Idx) (hi0 : (i 0).val = 4000 * n + (j 0).val) (hi1 : (i 1).val = (j 1).val) :
    k0_pay1 (F := Ideal) x0 x1 j = Cert.RefStage.lin64 A W i := by
  obtain ⟨p, q, rfl⟩ : ∃ (p : Fin 4000) (q : Fin 32), j = ValueIdx.ix2 p q := ⟨j 0, j 1, ValueIdx.eq_ix2 j⟩
  obtain ⟨P, Q, rfl⟩ : ∃ (P : Fin 100000) (Q : Fin 32), i = ValueIdx.ix2 P Q := ⟨i 0, i 1, ValueIdx.eq_ix2 i⟩
  obtain rfl : Q = q := Fin.ext hi1
  rw [pay0_apply, Cert.RefStage.lin64_apply]
  exact Finset.sum_congr rfl fun k _ => by rw [hx0 p k P hi0, hx1 k Q]

/-- WHAT POINT t WRITES BACK is block t of the whole-array product of the features and the weight as the region
    finds them. -/
theorem flushed0_eq (c : Dev nD) (t : Fin cfg0.N) :
    (dat0 (F := Ideal) V c).flushed 2 t = ((cfg0.win 2).blk t).view.read (Elt Ideal) (Cert.RefStage.lin64 (V c main_arg0) (V c main_arg3)) := by
  show (cfg0.win 2).cut (grid0.coords t) ((dat0 V c).after 2 t) = _
  rw [after0_2]
  unfold out0_2
  rw [View.canon_unit_zero hz0]
  simp only [View.ld_unit_zero (S := S4000x64) hz0, View.ld_unit_zero (S := S64x32) hz0]
  obtain ⟨e0, e1, e2, e3, e4, e5⟩ := idx_facts0 t
  funext j
  show k0_pay1 (F := Ideal) (iblk0 V c 0 t) (iblk0 V c 1 t) j = Cert.RefStage.lin64 (V c main_arg0) (V c main_arg3) (((cfg0.win 2).blk t).view.emb j)
  refine blk0_value (V c main_arg0) (V c main_arg3) (iblk0 V c 0 t) (iblk0 V c 1 t) t.val ?_ ?_ j _ ?_ ?_
  · intro p k P hP
    unfold iblk0
    rw [View.read_apply]
    show V c main_arg0 _ = V c main_arg0 _
    congr 1
    funext a
    apply Fin.ext
    match a with
    | ⟨0, _⟩ => show win0_0.index t (0 : Fin 2) * 4000 + 1 * p.val = P.val; rw [e0, hP]; omega
    | ⟨1, _⟩ => show win0_0.index t (1 : Fin 2) * 64 + 1 * k.val = k.val; rw [e1]; omega
  · intro k q
    unfold iblk0
    rw [View.read_apply]
    show V c main_arg3 _ = V c main_arg3 _
    congr 1
    funext a
    apply Fin.ext
    match a with
    | ⟨0, _⟩ => show win0_1.index t (0 : Fin 2) * 64 + 1 * k.val = k.val; rw [e2]; omega
    | ⟨1, _⟩ => show win0_1.index t (1 : Fin 2) * 32 + 1 * q.val = q.val; rw [e3]; omega
  · show win0_2.index t (0 : Fin 2) * 4000 + 1 * (j 0).val = 4000 * t.val + (j 0).val; rw [e4]; omega
  · show win0_2.index t (1 : Fin 2) * 32 + 1 * (j 1).val = (j 1).val; rw [e5]; omega

/-- An index of the result is in point t's block iff each coordinate is in the block's range on its axis. -/
theorem mem_blk0 (t : Fin cfg0.N) (i : S100000x32.Idx) :
    i ∈ ((cfg0.win 2).blk t).view.set ↔ ∀ a : Fin 2, win0_2.index t a * S4000x32.size a ≤ (i a).val ∧ (i a).val < win0_2.index t a * S4000x32.size a + S4000x32.size a := by
  show i ∈ ((View.whole main_v32).slice (win0_2.rect t)).set ↔ _
  rw [View.set_slice_whole, Rect.mem_set_unit]
  exact Iff.rfl

/-- The 25 blocks of 4000 rows tile the 100000 rows: row r is in the block of point r / 4000. -/
theorem cover0_all (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  obtain ⟨t, ht⟩ : ∃ t : Fin cfg0.N, t.val = (i 0).val / 4000 :=
    ⟨⟨(i 0).val / 4000, Nat.lt_of_lt_of_eq (by omega : (i 0).val / 4000 < 25) N_0.symm⟩, rfl⟩
  obtain ⟨-, -, -, -, e4, e5⟩ := idx_facts0 t
  refine ⟨t, flush0_2 t, ?_⟩
  rw [mem_blk0]
  intro a
  match a with
  | ⟨0, _⟩ => show win0_2.index t (0 : Fin 2) * 4000 ≤ (i 0).val ∧ (i 0).val < win0_2.index t (0 : Fin 2) * 4000 + 4000; rw [e4, ht]; omega
  | ⟨1, _⟩ => show win0_2.index t (1 : Fin 2) * 32 ≤ (i 1).val ∧ (i 1).val < win0_2.index t (1 : Fin 2) * 32 + 32; rw [e5]; omega

/-- THE RESULT ARRAY after the region: the whole-array product of the features and the weight as the region finds them. -/
theorem region0_value (c : Dev nD) :
    (dat0 (F := Ideal) V c).arrAt 2 cfg0.N = Cert.RefStage.lin64 (V c main_arg0) (V c main_arg3) :=
  (dat0 (F := Ideal) V c).arrAt_eq_of_cover 2 (Cert.RefStage.lin64 (V c main_arg0) (V c main_arg3))
    (fun t _ => flushed0_eq V c t) cover0_all

end Cert.Bridge

end
-- ==== Proof.LibRowCast.lean ====
/-
  A vector read as a row, and an index read at its axes.

  A vector of b entries reshaped to a row [1, b] keeps its entries in order: the row-major position of (u, j) in
  [1, b] is j, the position of j in [b]. So the row reads, at (u, j), entry j of the vector (the companion of the
  column form, a vector [a] reshaped to [a, 1], which reads entry r at (r, u)). A rank-2 index built from two
  coordinates, read back at axis 0 or 1, is that coordinate.
-/
import Idealize.ShloMosaic.Lib.Pipeline.Value
import Idealize.ShloMosaic.Lib.ValueIdx

noncomputable section

namespace Cert.RowCast

open Idealize.ShloMosaic Idealize.ShloMosaic.ValueIdx

/-- A vector of b entries cast to a row [1, b] reads, at (u, j), entry j: the two indices have the same
    row-major position. -/
theorem shapeCast_row_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by have := u.isLt; omega
    rw [Shape.rowMajor_val_two, Shape.rowMajor_val_one]
    show j.val = u.val * b + j.val
    rw [hu]; omega)

/-- A rank-2 index built from its coordinates, read at axis 0, is the first coordinate. -/
theorem ix2_at0 {n0 n1 : ℕ} (a : Fin n0) (b : Fin n1) : (ix2 a b) 0 = a := rfl
/-- Read at axis 1, the second. -/
theorem ix2_at1 {n0 n1 : ℕ} (a : Fin n0) (b : Fin n1) : (ix2 a b) 1 = b := rfl

end Cert.RowCast

end
-- ==== Proof.LibRowBroadcast.lean ====
/-
  A row broadcast down the first axis, read at an index given by coordinates.

  A row, an array of shape [1, b], broadcast along the first axis to [a, b] repeats the row in every one of the
  a rows: at (r, j) it reads the row's entry j, whatever r is. (The companion of the column form, [a, 1]
  broadcast to [a, b], which reads the column's entry r at (r, j).)
-/
import Idealize.ShloMosaic.Lib.Pipeline.Value
import Idealize.ShloMosaic.Lib.ValueIdx

noncomputable section

namespace Cert.RowBroadcast

open Idealize.ShloMosaic Idealize.ShloMosaic.ValueIdx

/-- A row `[1, b]` broadcast along the first axis to `[a, b]` reads, at `(r, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (r : Fin a) (j : Fin b) :
    broadcastTo ⟨2, ![a, b]⟩ v h (ix2 r j) = v (ix2 (0 : Fin 1) j) := by
  refine broadcastTo_apply v h (ix2 r j) (ix2 (0 : Fin 1) j) fun ax => ?_
  match ax with
  | ⟨0, _⟩ => rfl
  | ⟨1, _⟩ =>
    show j.val = if b = 1 then 0 else j.val
    split
    · have := j.isLt; omega
    · rfl

end Cert.RowBroadcast

end
-- ==== Proof.Region1.lean ====
import proofs.«160622_j56143812493986_1_alg».proof.Proof.Gen.KernelIdeal.Frame
import proofs.«160622_j56143812493986_1_alg».proof.Proof.Stages
import proofs.«160622_j56143812493986_1_alg».proof.Proof.LibRowCast
import proofs.«160622_j56143812493986_1_alg».proof.Proof.LibRowBroadcast
import Idealize.ShloMosaic.Lib.Pipeline.Value
import Idealize.ShloMosaic.Lib.ValueIdx
import Idealize.ShloMosaic.PureOps.Ideal.Laws

noncomputable section

namespace Cert.Bridge

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

open Idealize.ShloMosaic.ValueIdx

/-!
  Region 1: a bias row added to every row of a [100000, 32] array, then the maximum with zero.

  The 25 grid points cut the rows into consecutive blocks of 4000: point t holds rows 4000·t … 4000·t + 3999 and all
  32 columns, of the row operand and of the output alike, while the bias operand's block is the whole [1, 32] row at
  every point. Entry (p, q) of the block a point writes back is therefore
      max (rows (4000·t + p, q) + bias (0, q), 0),
  which is entry (4000·t + p, q) of one function of the whole arrays. Every row r lies in the block of point r / 4000,
  so the blocks fill the output array and it ends holding that function.
-/

/-- The zero offsets of a whole-block access. -/
theorem hz1 : (![0, 0] : Fin 2 → Nat) = fun _ => 0 := funext fun a => by fin_cases a <;> rfl

/-- The body at entry (p, q) of its blocks: the row block there plus the bias row at column q, against zero.
    Reshaping a block to its own shape changes nothing, the broadcast row reads its entry q in every row, and the
    zero word is the number 0. -/
theorem pay1_apply (x0 : Vec Ideal S4000x32 .f32) (x1 : Vec Ideal S1x32 .f32) (p : Fin 4000) (q : Fin 32) :
    k1_pay1 x0 x1 (ix2 p q) = max (x0 (ix2 p q) + x1 (ix2 (0 : Fin 1) q)) 0 := by
  unfold k1_pay1
  show max ((shapeCast S4000x32 x0 shapeCasts_S4000x32_S4000x32) (ix2 p q) + (broadcastTo S4000x32 (shapeCast S1x32 x1 shapeCasts_S1x32_S1x32) broadcasts_S1x32_S4000x32) (ix2 p q)) (Ideal.ofBits .f32 0x00000000#32) = _
  rw [shapeCast_self, shapeCast_self, Cert.RowBroadcast.broadcastTo_1b_ab_apply, Ideal.ofBits_zero_f32]

/-- The block indices over the grid: the row operand and the output are at block (t, 0), the bias at block (0, 0). -/
theorem idx_facts1 : ∀ t : Fin cfg1.N,
    win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- Entry (p, q) of the output's block at point t is entry (4000·t + p, q) of the array: on each axis the block index
    times the block's size plus the coordinate inside the block. -/
theorem emb1_out (t : Fin cfg1.N) (p : Fin 4000) (q : Fin 32) (P : Fin 100000) (hP : P.val = t.val * 4000 + p.val) :
    (((cfg1.win 2).blk t).view.emb (ix2 p q) : S100000x32.Idx) = ix2 P q := by
  obtain ⟨e0, e1, e2, e3, e4, e5⟩ := idx_facts1 t
  funext a; apply Fin.ext
  match a with
  | ⟨0, _⟩ => show win1_2.index t (0 : Fin 2) * 4000 + 1 * p.val = P.val; omega
  | ⟨1, _⟩ => show win1_2.index t (1 : Fin 2) * 32 + 1 * q.val = q.val; omega

/-- The row operand's block at point t covers the same rows: its entry (p, q) is the array's entry (4000·t + p, q). -/
theorem emb1_rows (t : Fin cfg1.N) (p : Fin 4000) (q : Fin 32) (P : Fin 100000) (hP : P.val = t.val * 4000 + p.val) :
    (((cfg1.win 0).blk t).view.emb (ix2 p q) : S100000x32.Idx) = ix2 P q := by
  obtain ⟨e0, e1, e2, e3, e4, e5⟩ := idx_facts1 t
  funext a; apply Fin.ext
  match a with
  | ⟨0, _⟩ => show win1_0.index t (0 : Fin 2) * 4000 + 1 * p.val = P.val; omega
  | ⟨1, _⟩ => show win1_0.index t (1 : Fin 2) * 32 + 1 * q.val = q.val; omega

/-- The bias operand's block is the whole row at every point: its entry (u, q) is the array's entry (u, q). -/
theorem emb1_bias (t : Fin cfg1.N) (u : Fin 1) (q : Fin 32) :
    (((cfg1.win 1).blk t).view.emb (ix2 u q) : S1x32.Idx) = ix2 u q := by
  obtain ⟨e0, e1, e2, e3, e4, e5⟩ := idx_facts1 t
  funext a; apply Fin.ext
  match a with
  | ⟨0, _⟩ => show win1_1.index t (0 : Fin 2) * 1 + 1 * u.val = u.val; omega
  | ⟨1, _⟩ => show win1_1.index t (1 : Fin 2) * 32 + 1 * q.val = q.val; omega

/-- What point t writes back is block t of the bias-and-maximum stage of the whole arrays: at (p, q) both sides are
    max (rows (4000·t + p, q) + b q, 0), the bias array being the vector b read as a row. -/
theorem flushed1_eq (c : Dev nD) (b : FVec Ideal S32 .f32)
    (hb : V c main_v46 = shapeCast S1x32 b shapeCasts_S32_S1x32) (t : Fin cfg1.N) :
    (dat1 (F := Ideal) V c).flushed 2 t = ((cfg1.win 2).blk t).view.read (Elt Ideal) (Cert.RefStage.biasRelu (V c main_v45) b) := by
  show (cfg1.win 2).cut (grid1.coords t) ((dat1 V c).after 2 t) = _
  rw [after1_2]
  unfold out1_2
  rw [View.canon_unit_zero hz1]
  simp only [View.ld_unit_zero (S := S4000x32) hz1, View.ld_unit_zero (S := S1x32) hz1]
  funext j
  obtain ⟨p, q, rfl⟩ : ∃ (p : Fin 4000) (q : Fin 32), j = ix2 p q := ⟨j 0, j 1, eq_ix2 j⟩
  have hN : cfg1.N = 25 := N_1
  have hp : p.val < 4000 := p.isLt
  have ht : t.val < 25 := by have := t.isLt; omega
  obtain ⟨P, hP⟩ : ∃ P : Fin 100000, P.val = t.val * 4000 + p.val := ⟨⟨t.val * 4000 + p.val, by omega⟩, rfl⟩
  have hrow : iblk1 V c 0 t (ix2 p q) = (V c main_v45 : FVec Ideal S100000x32 .f32) (ix2 P q) := by
    show (V c main_v45 : FVec Ideal S100000x32 .f32) (((cfg1.win 0).blk t).view.emb (ix2 p q)) = _
    rw [emb1_rows t p q P hP]
  have hbias : iblk1 V c 1 t (ix2 (0 : Fin 1) q) = b (ix1 q) := by
    show (V c main_v46 : FVec Ideal S1x32 .f32) (((cfg1.win 1).blk t).view.emb (ix2 (0 : Fin 1) q)) = _
    rw [emb1_bias t 0 q, hb, Cert.RowCast.shapeCast_row_apply]
  show k1_pay1 (iblk1 V c 0 t) (iblk1 V c 1 t) (ix2 p q) = Cert.RefStage.biasRelu (V c main_v45) b (((cfg1.win 2).blk t).view.emb (ix2 p q))
  rw [pay1_apply (iblk1 V c 0 t) (iblk1 V c 1 t) p q, emb1_out t p q P hP, Cert.RefStage.biasRelu_apply, hrow, hbias]

/-- An index of the output array is in point t's block iff each coordinate is in the block's range on its axis. -/
theorem mem_blk1 (t : Fin cfg1.N) (i : S100000x32.Idx) :
    i ∈ ((cfg1.win 2).blk t).view.set ↔ ∀ a : Fin 2, win1_2.index t a * S4000x32.size a ≤ (i a).val ∧ (i a).val < win1_2.index t a * S4000x32.size a + S4000x32.size a := by
  show i ∈ ((View.whole main_v47).slice (win1_2.rect t)).set ↔ _
  rw [View.set_slice_whole, Rect.mem_set_unit]
  exact Iff.rfl

/-- The blocks fill the output array: row r is in the block of point r / 4000, since 4000 · (r / 4000) ≤ r < 4000 · (r / 4000) + 4000
    and r < 100000 puts r / 4000 below 25; every column is in every block. -/
theorem cover1_all (i : S100000x32.Idx) :
    ∃ t : Fin cfg1.N, (cfg1.win 2).flush t = true ∧ i ∈ ((cfg1.win 2).blk t).view.set := by
  have hi0 : (i 0).val < 100000 := (i 0).isLt
  have hi1 : (i 1).val < 32 := (i 1).isLt
  have hN : cfg1.N = 25 := N_1
  obtain ⟨t, ht⟩ : ∃ t : Fin cfg1.N, t.val = (i 0).val / 4000 := ⟨⟨(i 0).val / 4000, by omega⟩, rfl⟩
  refine ⟨t, flush1_2 t, ?_⟩
  rw [mem_blk1]
  obtain ⟨e0, e1, e2, e3, e4, e5⟩ := idx_facts1 t
  intro a
  match a with
  | ⟨0, _⟩ => show win1_2.index t (0 : Fin 2) * 4000 ≤ (i 0).val ∧ (i 0).val < win1_2.index t (0 : Fin 2) * 4000 + 4000; omega
  | ⟨1, _⟩ => show win1_2.index t (1 : Fin 2) * 32 ≤ (i 1).val ∧ (i 1).val < win1_2.index t (1 : Fin 2) * 32 + 32; omega

/-- The output array after the region: the bias-and-maximum stage of the row operand's array and the bias vector. -/
theorem region1_value (c : Dev nD) (b : FVec Ideal S32 .f32)
    (hb : V c main_v46 = shapeCast S1x32 b shapeCasts_S32_S1x32) :
    (dat1 (F := Ideal) V c).arrAt 2 cfg1.N = Cert.RefStage.biasRelu (V c main_v45) b :=
  (dat1 (F := Ideal) V c).arrAt_eq_of_cover 2 (Cert.RefStage.biasRelu (V c main_v45) b)
    (fun t _ => flushed1_eq V c b hb t) cover1_all

end Cert.Bridge

end
-- ==== Proof.Region2.lean ====
import proofs.«160622_j56143812493986_1_alg».proof.Proof.Gen.KernelIdeal.Frame
import proofs.«160622_j56143812493986_1_alg».proof.Proof.Stages
import proofs.«160622_j56143812493986_1_alg».proof.Proof.LibDotRows
import Idealize.ShloMosaic.Lib.Pipeline.Value
import Idealize.ShloMosaic.Lib.ValueIdx
import Idealize.ShloMosaic.PureOps.Ideal.Laws

noncomputable section

namespace Cert.Bridge

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

/-! # Region 2: the dense product of the first layer's activations with the second weight

The grid has 25 points. At point t the output window's block is rows 4000·t … 4000·t + 3999 (all 32 columns) of the
[100000, 32] result, the row operand's block is the same rows (all 32 columns) of the [100000, 32] activations, and
the weight's block is the whole [32, 32] weight. The body's payload at (p, q) of a block is the sum over k of
block (p, k) · weight (k, q); so what point t writes back is rows 4000·t … of the whole-array product, and the 25
blocks tile the result. -/

theorem hz2 : (![0, 0] : Fin 2 → Nat) = fun _ => 0 := funext fun a => by fin_cases a <;> rfl

/-- The body's payload at (p, q): the cast of the row block to its own shape is the identity, rounding to the
    narrower format is the identity on the extended reals, the accumulator is the zero splat, and the contraction
    runs over the row operand's columns. -/
theorem pay2_apply (l : Vec Ideal S4000x32 .f32) (r : Vec Ideal S32x32 .f32) (p : Fin 4000) (q : Fin 32) :
    k2_pay1 (F := Ideal) l r (ValueIdx.ix2 p q) = ∑ k : Fin 32, l (ValueIdx.ix2 p k) * r (ValueIdx.ix2 k q) := by
  unfold k2_pay1
  refine (Ideal.matmul_constant_zero_apply dot_S4000x32_S32x32_S4000x32_1_0_0_1_n_n none _ _ (ValueIdx.ix2 p q)).trans ?_
  rw [shapeCast_self l shapeCasts_S4000x32_S4000x32]
  show ∑ c : dot_S4000x32_S32x32_S4000x32_1_0_0_1_n_n.contr.Idx, l (dot_S4000x32_S32x32_S4000x32_1_0_0_1_n_n.lhsIdx (ValueIdx.ix2 p q) c) * r (dot_S4000x32_S32x32_S4000x32_1_0_0_1_n_n.rhsIdx (ValueIdx.ix2 p q) c) = _
  dot_rows dot_S4000x32_S32x32_S4000x32_1_0_0_1_n_n S4000x32 S32x32 32

/-- The block index maps over the grid: the row operand's and the result's blocks move down one block of rows per
    point and stay at column block 0; the weight's block index is (0, 0) at every point. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- A block of rows times the whole weight is the same rows of the whole product: if the row block x0 is rows
    4000·n … of A and the weight block x1 is W, the payload at j is the product of A and W at the entry i that sits
    4000·n rows below j. -/
theorem blk2_value (A : FVec Ideal S100000x32 .f32) (W : FVec Ideal S32x32 .f32)
    (x0 : Vec Ideal S4000x32 .f32) (x1 : Vec Ideal S32x32 .f32) (n : Nat)
    (hx0 : ∀ (p : Fin 4000) (k : Fin 32) (P : Fin 100000), P.val = 4000 * n + p.val → x0 (ValueIdx.ix2 p k) = A (ValueIdx.ix2 P k))
    (hx1 : ∀ (k : Fin 32) (q : Fin 32), x1 (ValueIdx.ix2 k q) = W (ValueIdx.ix2 k q))
    (j : S4000x32.Idx) (i : S100000x32.Idx) (hi0 : (i 0).val = 4000 * n + (j 0).val) (hi1 : (i 1).val = (j 1).val) :
    k2_pay1 (F := Ideal) x0 x1 j = Cert.RefStage.lin32 A W i := by
  obtain ⟨p, q, rfl⟩ : ∃ (p : Fin 4000) (q : Fin 32), j = ValueIdx.ix2 p q := ⟨j 0, j 1, ValueIdx.eq_ix2 j⟩
  obtain ⟨P, Q, rfl⟩ : ∃ (P : Fin 100000) (Q : Fin 32), i = ValueIdx.ix2 P Q := ⟨i 0, i 1, ValueIdx.eq_ix2 i⟩
  obtain rfl : Q = q := Fin.ext hi1
  rw [pay2_apply, Cert.RefStage.lin32_apply]
  exact Finset.sum_congr rfl fun k _ => by rw [hx0 p k P hi0, hx1 k Q]

/-- WHAT POINT t WRITES BACK is block t of the whole-array product of the activations and the weight as the region
    finds them. -/
theorem flushed2_eq (c : Dev nD) (t : Fin cfg2.N) :
    (dat2 (F := Ideal) V c).flushed 2 t = ((cfg2.win 2).blk t).view.read (Elt Ideal) (Cert.RefStage.lin32 (V c main_v47) (V c main_arg5)) := by
  show (cfg2.win 2).cut (grid2.coords t) ((dat2 V c).after 2 t) = _
  rw [after2_2]
  unfold out2_2
  rw [View.canon_unit_zero hz2]
  simp only [View.ld_unit_zero (S := S4000x32) hz2, View.ld_unit_zero (S := S32x32) hz2]
  obtain ⟨e0, e1, e2, e3, e4, e5⟩ := idx_facts2 t
  funext j
  show k2_pay1 (F := Ideal) (iblk2 V c 0 t) (iblk2 V c 1 t) j = Cert.RefStage.lin32 (V c main_v47) (V c main_arg5) (((cfg2.win 2).blk t).view.emb j)
  refine blk2_value (V c main_v47) (V c main_arg5) (iblk2 V c 0 t) (iblk2 V c 1 t) t.val ?_ ?_ j _ ?_ ?_
  · intro p k P hP
    unfold iblk2
    rw [View.read_apply]
    show V c main_v47 _ = V c main_v47 _
    congr 1
    funext a
    apply Fin.ext
    match a with
    | ⟨0, _⟩ => show win2_0.index t (0 : Fin 2) * 4000 + 1 * p.val = P.val; rw [e0, hP]; omega
    | ⟨1, _⟩ => show win2_0.index t (1 : Fin 2) * 32 + 1 * k.val = k.val; rw [e1]; omega
  · intro k q
    unfold iblk2
    rw [View.read_apply]
    show V c main_arg5 _ = V c main_arg5 _
    congr 1
    funext a
    apply Fin.ext
    match a with
    | ⟨0, _⟩ => show win2_1.index t (0 : Fin 2) * 32 + 1 * k.val = k.val; rw [e2]; omega
    | ⟨1, _⟩ => show win2_1.index t (1 : Fin 2) * 32 + 1 * q.val = q.val; rw [e3]; omega
  · show win2_2.index t (0 : Fin 2) * 4000 + 1 * (j 0).val = 4000 * t.val + (j 0).val; rw [e4]; omega
  · show win2_2.index t (1 : Fin 2) * 32 + 1 * (j 1).val = (j 1).val; rw [e5]; omega

/-- An index of the result is in point t's block iff each coordinate is in the block's range on its axis. -/
theorem mem_blk2 (t : Fin cfg2.N) (i : S100000x32.Idx) :
    i ∈ ((cfg2.win 2).blk t).view.set ↔ ∀ a : Fin 2, win2_2.index t a * S4000x32.size a ≤ (i a).val ∧ (i a).val < win2_2.index t a * S4000x32.size a + S4000x32.size a := by
  show i ∈ ((View.whole main_v48).slice (win2_2.rect t)).set ↔ _
  rw [View.set_slice_whole, Rect.mem_set_unit]
  exact Iff.rfl

/-- The 25 blocks of 4000 rows tile the 100000 rows: row r is in the block of point r / 4000. -/
theorem cover2_all (i : S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  obtain ⟨t, ht⟩ : ∃ t : Fin cfg2.N, t.val = (i 0).val / 4000 :=
    ⟨⟨(i 0).val / 4000, Nat.lt_of_lt_of_eq (by omega : (i 0).val / 4000 < 25) N_2.symm⟩, rfl⟩
  obtain ⟨-, -, -, -, e4, e5⟩ := idx_facts2 t
  refine ⟨t, flush2_2 t, ?_⟩
  rw [mem_blk2]
  intro a
  match a with
  | ⟨0, _⟩ => show win2_2.index t (0 : Fin 2) * 4000 ≤ (i 0).val ∧ (i 0).val < win2_2.index t (0 : Fin 2) * 4000 + 4000; rw [e4, ht]; omega
  | ⟨1, _⟩ => show win2_2.index t (1 : Fin 2) * 32 ≤ (i 1).val ∧ (i 1).val < win2_2.index t (1 : Fin 2) * 32 + 32; rw [e5]; omega

/-- THE RESULT ARRAY after the region: the whole-array product of the activations and the weight as the region
    finds them. -/
theorem region2_value (c : Dev nD) :
    (dat2 (F := Ideal) V c).arrAt 2 cfg2.N = Cert.RefStage.lin32 (V c main_v47) (V c main_arg5) :=
  (dat2 (F := Ideal) V c).arrAt_eq_of_cover 2 (Cert.RefStage.lin32 (V c main_v47) (V c main_arg5))
    (fun t _ => flushed2_eq V c t) cover2_all

end Cert.Bridge

end
-- ==== Proof.Region3.lean ====
import proofs.«160622_j56143812493986_1_alg».proof.Proof.Gen.KernelIdeal.Frame
import proofs.«160622_j56143812493986_1_alg».proof.Proof.Stages
import proofs.«160622_j56143812493986_1_alg».proof.Proof.LibRowCast
import proofs.«160622_j56143812493986_1_alg».proof.Proof.LibRowBroadcast
import Idealize.ShloMosaic.Lib.Pipeline.Value
import Idealize.ShloMosaic.Lib.ValueIdx
import Idealize.ShloMosaic.PureOps.Ideal.Laws

noncomputable section

namespace Cert.Bridge

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

open Idealize.ShloMosaic.ValueIdx

/-!
  Region 3: a bias row added to every row of a [100000, 32] array, then the maximum with zero.

  The 25 grid points cut the rows into consecutive blocks of 4000: point t holds rows 4000·t … 4000·t + 3999 and all
  32 columns, of the row operand and of the output alike, while the bias operand's block is the whole [1, 32] row at
  every point. Entry (p, q) of the block a point writes back is therefore
      max (rows (4000·t + p, q) + bias (0, q), 0),
  which is entry (4000·t + p, q) of one function of the whole arrays. Every row r lies in the block of point r / 4000,
  so the blocks fill the output array and it ends holding that function.
-/

/-- The zero offsets of a whole-block access. -/
theorem hz3 : (![0, 0] : Fin 2 → Nat) = fun _ => 0 := funext fun a => by fin_cases a <;> rfl

/-- The body at entry (p, q) of its blocks: the row block there plus the bias row at column q, against zero.
    Reshaping a block to its own shape changes nothing, the broadcast row reads its entry q in every row, and the
    zero word is the number 0. -/
theorem pay3_apply (x0 : Vec Ideal S4000x32 .f32) (x1 : Vec Ideal S1x32 .f32) (p : Fin 4000) (q : Fin 32) :
    k3_pay1 x0 x1 (ix2 p q) = max (x0 (ix2 p q) + x1 (ix2 (0 : Fin 1) q)) 0 := by
  unfold k3_pay1
  show max ((shapeCast S4000x32 x0 shapeCasts_S4000x32_S4000x32) (ix2 p q) + (broadcastTo S4000x32 (shapeCast S1x32 x1 shapeCasts_S1x32_S1x32) broadcasts_S1x32_S4000x32) (ix2 p q)) (Ideal.ofBits .f32 0x00000000#32) = _
  rw [shapeCast_self, shapeCast_self, Cert.RowBroadcast.broadcastTo_1b_ab_apply, Ideal.ofBits_zero_f32]

/-- The block indices over the grid: the row operand and the output are at block (t, 0), the bias at block (0, 0). -/
theorem idx_facts3 : ∀ t : Fin cfg3.N,
    win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- Entry (p, q) of the output's block at point t is entry (4000·t + p, q) of the array: on each axis the block index
    times the block's size plus the coordinate inside the block. -/
theorem emb3_out (t : Fin cfg3.N) (p : Fin 4000) (q : Fin 32) (P : Fin 100000) (hP : P.val = t.val * 4000 + p.val) :
    (((cfg3.win 2).blk t).view.emb (ix2 p q) : S100000x32.Idx) = ix2 P q := by
  obtain ⟨e0, e1, e2, e3, e4, e5⟩ := idx_facts3 t
  funext a; apply Fin.ext
  match a with
  | ⟨0, _⟩ => show win3_2.index t (0 : Fin 2) * 4000 + 1 * p.val = P.val; omega
  | ⟨1, _⟩ => show win3_2.index t (1 : Fin 2) * 32 + 1 * q.val = q.val; omega

/-- The row operand's block at point t covers the same rows: its entry (p, q) is the array's entry (4000·t + p, q). -/
theorem emb3_rows (t : Fin cfg3.N) (p : Fin 4000) (q : Fin 32) (P : Fin 100000) (hP : P.val = t.val * 4000 + p.val) :
    (((cfg3.win 0).blk t).view.emb (ix2 p q) : S100000x32.Idx) = ix2 P q := by
  obtain ⟨e0, e1, e2, e3, e4, e5⟩ := idx_facts3 t
  funext a; apply Fin.ext
  match a with
  | ⟨0, _⟩ => show win3_0.index t (0 : Fin 2) * 4000 + 1 * p.val = P.val; omega
  | ⟨1, _⟩ => show win3_0.index t (1 : Fin 2) * 32 + 1 * q.val = q.val; omega

/-- The bias operand's block is the whole row at every point: its entry (u, q) is the array's entry (u, q). -/
theorem emb3_bias (t : Fin cfg3.N) (u : Fin 1) (q : Fin 32) :
    (((cfg3.win 1).blk t).view.emb (ix2 u q) : S1x32.Idx) = ix2 u q := by
  obtain ⟨e0, e1, e2, e3, e4, e5⟩ := idx_facts3 t
  funext a; apply Fin.ext
  match a with
  | ⟨0, _⟩ => show win3_1.index t (0 : Fin 2) * 1 + 1 * u.val = u.val; omega
  | ⟨1, _⟩ => show win3_1.index t (1 : Fin 2) * 32 + 1 * q.val = q.val; omega

/-- What point t writes back is block t of the bias-and-maximum stage of the whole arrays: at (p, q) both sides are
    max (rows (4000·t + p, q) + b q, 0), the bias array being the vector b read as a row. -/
theorem flushed3_eq (c : Dev nD) (b : FVec Ideal S32 .f32)
    (hb : V c main_v62 = shapeCast S1x32 b shapeCasts_S32_S1x32) (t : Fin cfg3.N) :
    (dat3 (F := Ideal) V c).flushed 2 t = ((cfg3.win 2).blk t).view.read (Elt Ideal) (Cert.RefStage.biasRelu (V c main_v61) b) := by
  show (cfg3.win 2).cut (grid3.coords t) ((dat3 V c).after 2 t) = _
  rw [after3_2]
  unfold out3_2
  rw [View.canon_unit_zero hz3]
  simp only [View.ld_unit_zero (S := S4000x32) hz3, View.ld_unit_zero (S := S1x32) hz3]
  funext j
  obtain ⟨p, q, rfl⟩ : ∃ (p : Fin 4000) (q : Fin 32), j = ix2 p q := ⟨j 0, j 1, eq_ix2 j⟩
  have hN : cfg3.N = 25 := N_3
  have hp : p.val < 4000 := p.isLt
  have ht : t.val < 25 := by have := t.isLt; omega
  obtain ⟨P, hP⟩ : ∃ P : Fin 100000, P.val = t.val * 4000 + p.val := ⟨⟨t.val * 4000 + p.val, by omega⟩, rfl⟩
  have hrow : iblk3 V c 0 t (ix2 p q) = (V c main_v61 : FVec Ideal S100000x32 .f32) (ix2 P q) := by
    show (V c main_v61 : FVec Ideal S100000x32 .f32) (((cfg3.win 0).blk t).view.emb (ix2 p q)) = _
    rw [emb3_rows t p q P hP]
  have hbias : iblk3 V c 1 t (ix2 (0 : Fin 1) q) = b (ix1 q) := by
    show (V c main_v62 : FVec Ideal S1x32 .f32) (((cfg3.win 1).blk t).view.emb (ix2 (0 : Fin 1) q)) = _
    rw [emb3_bias t 0 q, hb, Cert.RowCast.shapeCast_row_apply]
  show k3_pay1 (iblk3 V c 0 t) (iblk3 V c 1 t) (ix2 p q) = Cert.RefStage.biasRelu (V c main_v61) b (((cfg3.win 2).blk t).view.emb (ix2 p q))
  rw [pay3_apply (iblk3 V c 0 t) (iblk3 V c 1 t) p q, emb3_out t p q P hP, Cert.RefStage.biasRelu_apply, hrow, hbias]

/-- An index of the output array is in point t's block iff each coordinate is in the block's range on its axis. -/
theorem mem_blk3 (t : Fin cfg3.N) (i : S100000x32.Idx) :
    i ∈ ((cfg3.win 2).blk t).view.set ↔ ∀ a : Fin 2, win3_2.index t a * S4000x32.size a ≤ (i a).val ∧ (i a).val < win3_2.index t a * S4000x32.size a + S4000x32.size a := by
  show i ∈ ((View.whole main_v63).slice (win3_2.rect t)).set ↔ _
  rw [View.set_slice_whole, Rect.mem_set_unit]
  exact Iff.rfl

/-- The blocks fill the output array: row r is in the block of point r / 4000, since 4000 · (r / 4000) ≤ r < 4000 · (r / 4000) + 4000
    and r < 100000 puts r / 4000 below 25; every column is in every block. -/
theorem cover3_all (i : S100000x32.Idx) :
    ∃ t : Fin cfg3.N, (cfg3.win 2).flush t = true ∧ i ∈ ((cfg3.win 2).blk t).view.set := by
  have hi0 : (i 0).val < 100000 := (i 0).isLt
  have hi1 : (i 1).val < 32 := (i 1).isLt
  have hN : cfg3.N = 25 := N_3
  obtain ⟨t, ht⟩ : ∃ t : Fin cfg3.N, t.val = (i 0).val / 4000 := ⟨⟨(i 0).val / 4000, by omega⟩, rfl⟩
  refine ⟨t, flush3_2 t, ?_⟩
  rw [mem_blk3]
  obtain ⟨e0, e1, e2, e3, e4, e5⟩ := idx_facts3 t
  intro a
  match a with
  | ⟨0, _⟩ => show win3_2.index t (0 : Fin 2) * 4000 ≤ (i 0).val ∧ (i 0).val < win3_2.index t (0 : Fin 2) * 4000 + 4000; omega
  | ⟨1, _⟩ => show win3_2.index t (1 : Fin 2) * 32 ≤ (i 1).val ∧ (i 1).val < win3_2.index t (1 : Fin 2) * 32 + 32; omega

/-- The output array after the region: the bias-and-maximum stage of the row operand's array and the bias vector. -/
theorem region3_value (c : Dev nD) (b : FVec Ideal S32 .f32)
    (hb : V c main_v62 = shapeCast S1x32 b shapeCasts_S32_S1x32) :
    (dat3 (F := Ideal) V c).arrAt 2 cfg3.N = Cert.RefStage.biasRelu (V c main_v61) b :=
  (dat3 (F := Ideal) V c).arrAt_eq_of_cover 2 (Cert.RefStage.biasRelu (V c main_v61) b)
    (fun t _ => flushed3_eq V c b hb t) cover3_all

end Cert.Bridge

end
-- ==== Proof.Region4.lean ====
import proofs.«160622_j56143812493986_1_alg».proof.Proof.Gen.KernelIdeal.Frame
import proofs.«160622_j56143812493986_1_alg».proof.Proof.Stages
import proofs.«160622_j56143812493986_1_alg».proof.Proof.LibRowCast
import proofs.«160622_j56143812493986_1_alg».proof.Proof.LibRowBroadcast
import proofs.«160622_j56143812493986_1_alg».proof.Proof.LibDotRows
import Idealize.ShloMosaic.Lib.Pipeline.Value
import Idealize.ShloMosaic.Lib.ValueIdx
import Idealize.ShloMosaic.PureOps.Ideal.Laws

noncomputable section

namespace Cert.Bridge

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

/-! # Region 4: the head — a dense product, a bias row, the hyperbolic tangent

The grid has 25 points. At point t the output window's block is rows 4000·t … 4000·t + 3999 (all 16 columns) of the
[100000, 16] result, the row operand's block is the same rows (all 32 columns) of the [100000, 32] activations, the
weight's block is the whole [32, 16] weight and the bias block is the whole [1, 16] bias row. The body's payload at
(p, q) of a block is tanh of (the sum over k of block (p, k) · weight (k, q), plus the bias row's entry q); so what
point t writes back is rows 4000·t … of the whole-array head, and the 25 blocks tile the result. -/

theorem hz4 : (![0, 0] : Fin 2 → Nat) = fun _ => 0 := funext fun a => by fin_cases a <;> rfl

/-- The body's payload at (p, q): the casts of the row block and of the bias row to their own shapes are the
    identity, rounding to the narrower format is the identity on the extended reals, the accumulator is the zero
    splat, the contraction runs over the row operand's columns, and the bias row broadcast down the rows reads its
    entry q in every row. -/
theorem pay4_apply (l : Vec Ideal S4000x32 .f32) (r : Vec Ideal S32x16 .f32) (g : Vec Ideal S1x16 .f32) (p : Fin 4000) (q : Fin 16) :
    k4_pay1 (F := Ideal) l r g (ValueIdx.ix2 p q)
      = Ideal.tanh ((∑ k : Fin 32, l (ValueIdx.ix2 p k) * r (ValueIdx.ix2 k q)) + g (ValueIdx.ix2 (0 : Fin 1) q)) := by
  unfold k4_pay1
  rw [shapeCast_self l shapeCasts_S4000x32_S4000x32, shapeCast_self g shapeCasts_S1x16_S1x16]
  refine congrArg Ideal.tanh (congrArg₂ (· + ·) ?_ ?_)
  · refine (Ideal.matmul_constant_zero_apply dot_S4000x32_S32x16_S4000x16_1_0_0_1_n_n none _ _ (ValueIdx.ix2 p q)).trans ?_
    show ∑ c : dot_S4000x32_S32x16_S4000x16_1_0_0_1_n_n.contr.Idx, l (dot_S4000x32_S32x16_S4000x16_1_0_0_1_n_n.lhsIdx (ValueIdx.ix2 p q) c) * r (dot_S4000x32_S32x16_S4000x16_1_0_0_1_n_n.rhsIdx (ValueIdx.ix2 p q) c) = _
    dot_rows dot_S4000x32_S32x16_S4000x16_1_0_0_1_n_n S4000x32 S32x16 32
  · exact Cert.RowBroadcast.broadcastTo_1b_ab_apply g broadcasts_S1x16_S4000x16 p q

/-- The block index maps over the grid: the row operand's and the result's blocks move down one block of rows per
    point and stay at column block 0; the weight's and the bias row's block index is (0, 0) at every point. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- A block of rows through the head is the same rows of the whole head: if the row block x0 is rows 4000·n … of A,
    the weight block x1 is W and the bias block x2 is the vector b laid out as a row, the payload at j is the head of
    A, W and b at the entry i that sits 4000·n rows below j. -/
theorem blk4_value (A : FVec Ideal S100000x32 .f32) (W : FVec Ideal S32x16 .f32) (b : FVec Ideal S16 .f32)
    (x0 : Vec Ideal S4000x32 .f32) (x1 : Vec Ideal S32x16 .f32) (x2 : Vec Ideal S1x16 .f32) (n : Nat)
    (hx0 : ∀ (p : Fin 4000) (k : Fin 32) (P : Fin 100000), P.val = 4000 * n + p.val → x0 (ValueIdx.ix2 p k) = A (ValueIdx.ix2 P k))
    (hx1 : ∀ (k : Fin 32) (q : Fin 16), x1 (ValueIdx.ix2 k q) = W (ValueIdx.ix2 k q))
    (hx2 : ∀ q : Fin 16, x2 (ValueIdx.ix2 (0 : Fin 1) q) = b (ValueIdx.ix1 q))
    (j : S4000x16.Idx) (i : S100000x16.Idx) (hi0 : (i 0).val = 4000 * n + (j 0).val) (hi1 : (i 1).val = (j 1).val) :
    k4_pay1 (F := Ideal) x0 x1 x2 j = Cert.RefStage.head A W b i := by
  obtain ⟨p, q, rfl⟩ : ∃ (p : Fin 4000) (q : Fin 16), j = ValueIdx.ix2 p q := ⟨j 0, j 1, ValueIdx.eq_ix2 j⟩
  obtain ⟨P, Q, rfl⟩ : ∃ (P : Fin 100000) (Q : Fin 16), i = ValueIdx.ix2 P Q := ⟨i 0, i 1, ValueIdx.eq_ix2 i⟩
  obtain rfl : Q = q := Fin.ext hi1
  rw [pay4_apply, Cert.RefStage.head_apply, hx2 Q]
  refine congrArg Ideal.tanh (congrArg (· + b (ValueIdx.ix1 Q)) ?_)
  exact Finset.sum_congr rfl fun k _ => by rw [hx0 p k P hi0, hx1 k Q]

/-- WHAT POINT t WRITES BACK is block t of the whole-array head of the activations, the weight and the bias vector,
    the bias row the region finds being that vector laid out as a row. -/
theorem flushed4_eq (c : Dev nD) (b : FVec Ideal S16 .f32)
    (hb : V c main_v64 = shapeCast S1x16 b shapeCasts_S16_S1x16) (t : Fin cfg4.N) :
    (dat4 (F := Ideal) V c).flushed 3 t = ((cfg4.win 3).blk t).view.read (Elt Ideal) (Cert.RefStage.head (V c main_v63) (V c main_arg7) b) := by
  show (cfg4.win 3).cut (grid4.coords t) ((dat4 V c).after 3 t) = _
  rw [after4_3]
  unfold out4_3
  rw [View.canon_unit_zero hz4]
  simp only [View.ld_unit_zero (S := S4000x32) hz4, View.ld_unit_zero (S := S32x16) hz4, View.ld_unit_zero (S := S1x16) hz4]
  obtain ⟨e0, e1, e2, e3, e4, e5, e6, e7⟩ := idx_facts4 t
  funext j
  show k4_pay1 (F := Ideal) (iblk4 V c 0 t) (iblk4 V c 1 t) (iblk4 V c 2 t) j = Cert.RefStage.head (V c main_v63) (V c main_arg7) b (((cfg4.win 3).blk t).view.emb j)
  refine blk4_value (V c main_v63) (V c main_arg7) b (iblk4 V c 0 t) (iblk4 V c 1 t) (iblk4 V c 2 t) t.val ?_ ?_ ?_ j _ ?_ ?_
  · intro p k P hP
    unfold iblk4
    rw [View.read_apply]
    show V c main_v63 _ = V c main_v63 _
    congr 1
    funext a
    apply Fin.ext
    match a with
    | ⟨0, _⟩ => show win4_0.index t (0 : Fin 2) * 4000 + 1 * p.val = P.val; rw [e0, hP]; omega
    | ⟨1, _⟩ => show win4_0.index t (1 : Fin 2) * 32 + 1 * k.val = k.val; rw [e1]; omega
  · intro k q
    unfold iblk4
    rw [View.read_apply]
    show V c main_arg7 _ = V c main_arg7 _
    congr 1
    funext a
    apply Fin.ext
    match a with
    | ⟨0, _⟩ => show win4_1.index t (0 : Fin 2) * 32 + 1 * k.val = k.val; rw [e2]; omega
    | ⟨1, _⟩ => show win4_1.index t (1 : Fin 2) * 16 + 1 * q.val = q.val; rw [e3]; omega
  · intro q
    unfold iblk4
    rw [View.read_apply]
    show V c main_v64 _ = b (ValueIdx.ix1 q)
    rw [hb]
    refine Eq.trans (congrArg (shapeCast S1x16 b shapeCasts_S16_S1x16) ?_) (Cert.RowCast.shapeCast_row_apply b shapeCasts_S16_S1x16 (0 : Fin 1) q)
    funext a
    apply Fin.ext
    match a with
    | ⟨0, _⟩ => show win4_2.index t (0 : Fin 2) * 1 + 1 * (0 : Fin 1).val = (0 : Fin 1).val; rw [e4]; rfl
    | ⟨1, _⟩ => show win4_2.index t (1 : Fin 2) * 16 + 1 * q.val = q.val; rw [e5]; omega
  · show win4_3.index t (0 : Fin 2) * 4000 + 1 * (j 0).val = 4000 * t.val + (j 0).val; rw [e6]; omega
  · show win4_3.index t (1 : Fin 2) * 16 + 1 * (j 1).val = (j 1).val; rw [e7]; omega

/-- An index of the result is in point t's block iff each coordinate is in the block's range on its axis. -/
theorem mem_blk4 (t : Fin cfg4.N) (i : S100000x16.Idx) :
    i ∈ ((cfg4.win 3).blk t).view.set ↔ ∀ a : Fin 2, win4_3.index t a * S4000x16.size a ≤ (i a).val ∧ (i a).val < win4_3.index t a * S4000x16.size a + S4000x16.size a := by
  show i ∈ ((View.whole main_v65).slice (win4_3.rect t)).set ↔ _
  rw [View.set_slice_whole, Rect.mem_set_unit]
  exact Iff.rfl

/-- The 25 blocks of 4000 rows tile the 100000 rows: row r is in the block of point r / 4000. -/
theorem cover4_all (i : S100000x16.Idx) :
    ∃ t : Fin cfg4.N, (cfg4.win 3).flush t = true ∧ i ∈ ((cfg4.win 3).blk t).view.set := by
  have hi0 : (i 0).val < 100000 := (i 0).isLt
  have hi1 : (i 1).val < 16 := (i 1).isLt
  obtain ⟨t, ht⟩ : ∃ t : Fin cfg4.N, t.val = (i 0).val / 4000 :=
    ⟨⟨(i 0).val / 4000, Nat.lt_of_lt_of_eq (by omega : (i 0).val / 4000 < 25) N_4.symm⟩, rfl⟩
  obtain ⟨-, -, -, -, -, -, e6, e7⟩ := idx_facts4 t
  refine ⟨t, flush4_3 t, ?_⟩
  rw [mem_blk4]
  intro a
  match a with
  | ⟨0, _⟩ => show win4_3.index t (0 : Fin 2) * 4000 ≤ (i 0).val ∧ (i 0).val < win4_3.index t (0 : Fin 2) * 4000 + 4000; rw [e6, ht]; omega
  | ⟨1, _⟩ => show win4_3.index t (1 : Fin 2) * 16 ≤ (i 1).val ∧ (i 1).val < win4_3.index t (1 : Fin 2) * 16 + 16; rw [e7]; omega

/-- THE RESULT ARRAY after the region: the whole-array head of the activations, the weight and the bias vector as the
    region finds them. -/
theorem region4_value (c : Dev nD) (b : FVec Ideal S16 .f32)
    (hb : V c main_v64 = shapeCast S1x16 b shapeCasts_S16_S1x16) :
    (dat4 (F := Ideal) V c).arrAt 3 cfg4.N = Cert.RefStage.head (V c main_v63) (V c main_arg7) b :=
  (dat4 (F := Ideal) V c).arrAt_eq_of_cover 3 (Cert.RefStage.head (V c main_v63) (V c main_arg7) b)
    (fun t _ => flushed4_eq V c b hb t) cover4_all

end Cert.Bridge

end
-- ==== Proof.lean ====
/-
  The certificate of a two-layer graph convolution with a tanh head: the kernel's five regions and the
  host operations between them against the reference's one chain of host operations.

  At the ideal instance both programs compute, from the node features x, the edge list with one
  self-loop per node, the edge weights and the weights and biases of three dense layers,

      tanh (h₂ · W₃ + b₃),   hₖ = max (Â · (hₖ₋₁ · Wₖ) + bₖ, 0),   h₀ = x,

  where Â · h gathers the rows of h by source, scales row e by dinv[src e] · w e · dinv[dst e] and adds
  it into row dst e.  The kernel computes each dense product block by block on the matrix unit (its
  operands rounded to bf16 on the way in, which is the identity on the extended reals) into a zero
  accumulator, which on the extended reals is the same finite sum as the reference's dot product; it
  adds each bias as a row broadcast down a block and takes the maximum with zero (the hyperbolic
  tangent for the head) entry by entry, as the reference does on whole arrays; and it leaves the
  aggregation to the same host operations as the reference, computing the coefficients once where
  the reference computes them once per layer.  No law beyond "a block of a whole-array function is the
  function of the blocks" and the reading of a dense product as a finite sum is used, so the
  precondition (finite inputs) is never opened.

  The three frames: the two kernels' from their launches over the eleven segments of @main, the
  reference's from its run with the result dropped.  The idealization rewrote nothing.  The algebraic
  claim: the kernel's run names the result at the last boundary of the fold through @main
  (KernelRun), that boundary's contents are the composed network of the launch contents (Chain, from
  the five regions' output arrays: Region0 … Region4, and the host stretches: Host), and the
  reference's result is the same composed network (RefNet).
-/
import proofs.«160622_j56143812493986_1_alg».proof.Defs
import proofs.«160622_j56143812493986_1_alg».proof.Proof.Gen.Kernel
import proofs.«160622_j56143812493986_1_alg».proof.Proof.Gen.Kernel.Frame
import proofs.«160622_j56143812493986_1_alg».proof.Proof.Gen.KernelIdeal
import proofs.«160622_j56143812493986_1_alg».proof.Proof.Gen.KernelIdeal.Frame
import proofs.«160622_j56143812493986_1_alg».proof.Proof.Gen.ReferenceIdeal
import proofs.«160622_j56143812493986_1_alg».proof.Proof.Gen.Pre_finite_inputs
import proofs.«160622_j56143812493986_1_alg».proof.Proof.Gen.ReferenceIdeal.Run
import proofs.«160622_j56143812493986_1_alg».proof.Proof.Gen.ReferenceIdeal.Read
import proofs.«160622_j56143812493986_1_alg».proof.Proof.KernelRun
import proofs.«160622_j56143812493986_1_alg».proof.Proof.Chain
import proofs.«160622_j56143812493986_1_alg».proof.Proof.Region0
import proofs.«160622_j56143812493986_1_alg».proof.Proof.Region1
import proofs.«160622_j56143812493986_1_alg».proof.Proof.Region2
import proofs.«160622_j56143812493986_1_alg».proof.Proof.Region3
import proofs.«160622_j56143812493986_1_alg».proof.Proof.Region4
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the composed network of the (agreeing) arguments. -/
theorem algebraic : Cert.algebraic_KernelIdeal_ReferenceIdeal := by
  intro m ρ m' ρ' _ hagree
  refine ⟨fun c => Cert.RefStage.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.Bridge.kernel_value m ρ c Cert.Bridge.region0_value Cert.Bridge.region1_value
          Cert.Bridge.region2_value Cert.Bridge.region3_value Cert.Bridge.region4_value), (h c).2⟩)
      (Cert.Bridge.kernel_run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8⟩ := hagree c
    rw [Cert.ReferenceIdeal.Read.val_main_v95_eq, Cert.RefStage.ref_eq_net, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
